-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2 : Shape := ⟨2, ![4096, 2]⟩
abbrev S100000x10 : Shape := ⟨2, ![100000, 10]⟩
abbrev S100000x256 : Shape := ⟨2, ![100000, 256]⟩
abbrev S128x256 : Shape := ⟨2, ![128, 256]⟩
abbrev S128x128 : Shape := ⟨2, ![128, 128]⟩
abbrev S2x128 : Shape := ⟨2, ![2, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128x128 : S_.BroadcastsInDim S128x128 (![] : Fin 0 → Fin S128x128.rank)
  reducesTo_S128x128_S_d0_1 : S128x128.ReducesTo [0, 1] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  main_v18

def fn {F : FTy → Type} [FloatOps F] (main_arg0 : IVec S4096x2 32) (main_arg1 : IVec S100000x10 32) (main_arg2 : FVec F S100000x256 .f32) (main_arg3 : FVec F S128x256 .f32) (main_arg4 : FVec F S128x128 .f32) (main_arg5 : FVec F S2x128 .f32) : IVec S_ 1 :=
  let main_v0 : FVec F S100000x256 .f32 := Host.absf main_arg2
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S2x128 .f32 := Host.absf main_arg5
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_v13 main_v16
-- ==== Kernel.lean ====
abbrev S4096x2 : Shape := ⟨2, ![4096, 2]⟩
abbrev S100000x10 : Shape := ⟨2, ![100000, 10]⟩
abbrev S100000x256 : Shape := ⟨2, ![100000, 256]⟩
abbrev S128x256 : Shape := ⟨2, ![128, 256]⟩
abbrev S128x128 : Shape := ⟨2, ![128, 128]⟩
abbrev S2x128 : Shape := ⟨2, ![2, 128]⟩
abbrev S100000x128 : Shape := ⟨2, ![100000, 128]⟩
abbrev S_ : Shape := ⟨0, ![]⟩
abbrev S4096x2x1 : Shape := ⟨3, ![4096, 2, 1]⟩
abbrev S4096x2x10 : Shape := ⟨3, ![4096, 2, 10]⟩
abbrev S4096x2x10x1 : Shape := ⟨4, ![4096, 2, 10, 1]⟩
abbrev S4096x2x10x10 : Shape := ⟨4, ![4096, 2, 10, 10]⟩
abbrev S4096x2x10x10x1 : Shape := ⟨5, ![4096, 2, 10, 10, 1]⟩
abbrev S4096x2x10x10x128 : Shape := ⟨5, ![4096, 2, 10, 10, 128]⟩
abbrev S5000x256 : Shape := ⟨2, ![5000, 256]⟩
abbrev S5000x128 : Shape := ⟨2, ![5000, 128]⟩
abbrev S128x2x10x10x128 : Shape := ⟨5, ![128, 2, 10, 10, 128]⟩
abbrev S128x2 : Shape := ⟨2, ![128, 2]⟩
abbrev S128x2x10x128 : Shape := ⟨4, ![128, 2, 10, 128]⟩
abbrev S128x2x128 : Shape := ⟨3, ![128, 2, 128]⟩
abbrev S128x1x128 : Shape := ⟨3, ![128, 1, 128]⟩

abbrev nBuf : Space → Nat
  | .hbm => 36
  | .vmem => 10
  | .smem => 0
  | _ => 0

abbrev bufTy : (tb : Table) → Fin (tcTables nBuf tb) → BufTy
  | .hbm, ⟨0, _⟩ => ⟨S4096x2, .i32⟩
  | .hbm, ⟨1, _⟩ => ⟨S100000x10, .i32⟩
  | .hbm, ⟨2, _⟩ => ⟨S100000x256, .f32⟩
  | .hbm, ⟨3, _⟩ => ⟨S128x256, .f32⟩
  | .hbm, ⟨4, _⟩ => ⟨S128x128, .f32⟩
  | .hbm, ⟨5, _⟩ => ⟨S2x128, .f32⟩
  | .hbm, ⟨6, _⟩ => ⟨S100000x128, .bf16⟩
  | .hbm, ⟨7, _⟩ => ⟨S_, .i32⟩
  | .hbm, ⟨8, _⟩ => ⟨S4096x2, .i32⟩
  | .hbm, ⟨9, _⟩ => ⟨S4096x2, .i1⟩
  | .hbm, ⟨10, _⟩ => ⟨S_, .i32⟩
  | .hbm, ⟨11, _⟩ => ⟨S4096x2, .i32⟩
  | .hbm, ⟨12, _⟩ => ⟨S4096x2, .i32⟩
  | .hbm, ⟨13, _⟩ => ⟨S4096x2, .i32⟩
  | .hbm, ⟨14, _⟩ => ⟨S4096x2x1, .i32⟩
  | .hbm, ⟨15, _⟩ => ⟨S4096x2x10, .i32⟩
  | .hbm, ⟨16, _⟩ => ⟨S_, .i32⟩
  | .hbm, ⟨17, _⟩ => ⟨S4096x2x10, .i32⟩
  | .hbm, ⟨18, _⟩ => ⟨S4096x2x10, .i1⟩
  | .hbm, ⟨19, _⟩ => ⟨S_, .i32⟩
  | .hbm, ⟨20, _⟩ => ⟨S4096x2x10, .i32⟩
  | .hbm, ⟨21, _⟩ => ⟨S4096x2x10, .i32⟩
  | .hbm, ⟨22, _⟩ => ⟨S4096x2x10, .i32⟩
  | .hbm, ⟨23, _⟩ => ⟨S4096x2x10x1, .i32⟩
  | .hbm, ⟨24, _⟩ => ⟨S4096x2x10x10, .i32⟩
  | .hbm, ⟨25, _⟩ => ⟨S_, .i32⟩
  | .hbm, ⟨26, _⟩ => ⟨S4096x2x10x10, .i32⟩
  | .hbm, ⟨27, _⟩ => ⟨S4096x2x10x10, .i1⟩
  | .hbm, ⟨28, _⟩ => ⟨S_, .i32⟩
  | .hbm, ⟨29, _⟩ => ⟨S4096x2x10x10, .i32⟩
  | .hbm, ⟨30, _⟩ => ⟨S4096x2x10x10, .i32⟩
  | .hbm, ⟨31, _⟩ => ⟨S4096x2x10x10, .i32⟩
  | .hbm, ⟨32, _⟩ => ⟨S4096x2x10x10x1, .i32⟩
  | .hbm, ⟨33, _⟩ => ⟨S4096x2x10x10x128, .bf16⟩
  | .hbm, ⟨34, _⟩ => ⟨S2x128, .f32⟩
  | .hbm, ⟨35, _⟩ => ⟨S4096x2, .f32⟩
  | .local _ .vmem, ⟨0, _⟩ => ⟨S5000x256, .f32⟩
  | .local _ .vmem, ⟨1, _⟩ => ⟨S5000x256, .f32⟩
  | .local _ .vmem, ⟨2, _⟩ => ⟨S128x256, .f32⟩
  | .local _ .vmem, ⟨3, _⟩ => ⟨S5000x128, .bf16⟩
  | .local _ .vmem, ⟨4, _⟩ => ⟨S5000x128, .bf16⟩
  | .local _ .vmem, ⟨5, _⟩ => ⟨S128x2x10x10x128, .bf16⟩
  | .local _ .vmem, ⟨6, _⟩ => ⟨S128x2x10x10x128, .bf16⟩
  | .local _ .vmem, ⟨7, _⟩ => ⟨S2x128, .f32⟩
  | .local _ .vmem, ⟨8, _⟩ => ⟨S128x2, .f32⟩
  | .local _ .vmem, ⟨9, _⟩ => ⟨S128x2, .f32⟩
  | _, _ => ⟨S4096x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_c_0 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_c_1 : Ref sig .tc := ⟨.hbm, 16, rfl⟩
abbrev main_call0_v8 : Ref sig .tc := ⟨.hbm, 17, rfl⟩
abbrev main_call0_v9 : Ref sig .tc := ⟨.hbm, 18, rfl⟩
abbrev main_call0_c_2 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_c_3 : Ref sig .tc := ⟨.hbm, 25, rfl⟩
abbrev main_call0_v15 : Ref sig .tc := ⟨.hbm, 26, rfl⟩
abbrev main_call0_v16 : Ref sig .tc := ⟨.hbm, 27, rfl⟩
abbrev main_call0_c_4 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_v0 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x2x10x10x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S4096x2 : S_.BroadcastsInDim S4096x2 (![] : Fin 0 → Fin S4096x2.rank)
  bcast_S4096x2_S4096x2x1_0_1 : S4096x2.BroadcastsInDim S4096x2x1 (![0, 1] : Fin 2 → Fin S4096x2x1.rank)
  bcast_S_S4096x2x10 : S_.BroadcastsInDim S4096x2x10 (![] : Fin 0 → Fin S4096x2x10.rank)
  bcast_S4096x2x10_S4096x2x10x1_0_1_2 : S4096x2x10.BroadcastsInDim S4096x2x10x1 (![0, 1, 2] : Fin 3 → Fin S4096x2x10x1.rank)
  bcast_S_S4096x2x10x10 : S_.BroadcastsInDim S4096x2x10x10 (![] : Fin 0 → Fin S4096x2x10x10.rank)
  bcast_S4096x2x10x10_S4096x2x10x10x1_0_1_2_3 : S4096x2x10x10.BroadcastsInDim S4096x2x10x10x1 (![0, 1, 2, 3] : Fin 4 → Fin S4096x2x10x10x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  inb_S128x2x10x10x128_S128x2x10x10x128_0_0_0_0_0 : ∀ a, (![0, 0, 0, 0, 0] : Fin 5 → Nat) a + S128x2x10x10x128.size a ≤ S128x2x10x10x128.size a
  h_S128x2x10x10x128 : 0 < S128x2x10x10x128.numel
  shapeCasts_S128x2x10x10x128_S128x2x10x10x128 : S128x2x10x10x128.ShapeCasts S128x2x10x10x128
  reduces_S128x2x10x10x128_S128x2x10x128 : S128x2x10x10x128.Reduces [3] S128x2x10x128
  reduces_S128x2x10x128_S128x2x128 : S128x2x10x128.Reduces [2] S128x2x128
  slices_S128x2x128_o0_0_0_S128x1x128 : S128x2x128.Slices ![0, 0, 0] S128x1x128
  shapeCasts_S128x1x128_S128x128 : S128x1x128.ShapeCasts S128x128
  slices_S128x2x128_o0_1_0_S128x1x128 : S128x2x128.Slices ![0, 1, 0] S128x1x128
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S128x2_S128x2_0_0 : ∀ a, (![0, 0] : Fin 2 → Nat) a + S128x2.size a ≤ S128x2.size a
  h_S128x2 : 0 < S128x2.numel
  gather_S100000x10_S4096x2x1_S4096x2x10_2_0_n_n_0_2_110_wf : GatherDims.WF S100000x10 S4096x2x1 S4096x2x10 [2] [0] [] [0] [] 2 ![1, 10]
  gather_S100000x10_S4096x2x10x1_S4096x2x10x10_3_0_n_n_0_3_110_wf : GatherDims.WF S100000x10 S4096x2x10x1 S4096x2x10x10 [3] [0] [] [0] [] 3 ![1, 10]
  gather_S100000x128_S4096x2x10x10x1_S4096x2x10x10x128_4_0_n_n_0_4_1128_wf : GatherDims.WF S100000x128 S4096x2x10x10x1 S4096x2x10x10x128 [4] [0] [] [0] [] 4 ![1, 128]
  dot_S2x128_S128x128_S2x128_1_0_0_1_n_n_wf : DotDims.WF S2x128 S128x128 S2x128 [1] [0] [0] [1] [] []
  dot_S5000x256_S128x256_S5000x128_1_1_0_0_n_n_wf : DotDims.WF S5000x256 S128x256 S5000x128 [1] [1] [0] [0] [] []
  dot_S128x128_S2x128_S128x2_1_1_0_0_n_n_wf : DotDims.WF S128x128 S2x128 S128x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .bf16 = 32 ∨ (Rect.block (s := S100000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x2x10x10x128.size a ≤ S4096x2x10x10x128.size a
  hwx1_0 : ∀ i : grid1.Coords, EltTy.bits .bf16 = 32 ∨ (Rect.block (s := S4096x2x10x10x128) S128x2x10x10x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x128.size a ≤ S2x128.size a
  hwx1_1 : ∀ i : grid1.Coords, EltTy.bits .f32 = 32 ∨ (Rect.block (s := S2x128) S2x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x2.size a ≤ S4096x2.size a
  hwx1_2 : ∀ i : grid1.Coords, EltTy.bits .f32 = 32 ∨ (Rect.block (s := S4096x2) S128x2.size (cc1_transform_2 i) (hinb1_2 i)).WholeWords (EltTy.packing .f32)

variable [Facts₀]

def gather_S100000x10_S4096x2x1_S4096x2x10_2_0_n_n_0_2_110 : GatherDims S100000x10 S4096x2x1 S4096x2x10 where
  offsetDims := [2]
  collapsedSliceDims := [0]
  operandBatchingDims := []
  startIndicesBatchingDims := []
  startIndexMap := [0]
  indexVectorDim := 2
  sliceSizes := ![1, 10]
  wf := gather_S100000x10_S4096x2x1_S4096x2x10_2_0_n_n_0_2_110_wf
def gather_S100000x10_S4096x2x10x1_S4096x2x10x10_3_0_n_n_0_3_110 : GatherDims S100000x10 S4096x2x10x1 S4096x2x10x10 where
  offsetDims := [3]
  collapsedSliceDims := [0]
  operandBatchingDims := []
  startIndicesBatchingDims := []
  startIndexMap := [0]
  indexVectorDim := 3
  sliceSizes := ![1, 10]
  wf := gather_S100000x10_S4096x2x10x1_S4096x2x10x10_3_0_n_n_0_3_110_wf
def gather_S100000x128_S4096x2x10x10x1_S4096x2x10x10x128_4_0_n_n_0_4_1128 : GatherDims S100000x128 S4096x2x10x10x1 S4096x2x10x10x128 where
  offsetDims := [4]
  collapsedSliceDims := [0]
  operandBatchingDims := []
  startIndicesBatchingDims := []
  startIndexMap := [0]
  indexVectorDim := 4
  sliceSizes := ![1, 128]
  wf := gather_S100000x128_S4096x2x10x10x1_S4096x2x10x10x128_4_0_n_n_0_4_1128_wf
def dot_S2x128_S128x128_S2x128_1_0_0_1_n_n : DotDims S2x128 S128x128 S2x128 where
  lhsContracting := [1]
  rhsContracting := [0]
  lhsNonContracting := [0]
  rhsNonContracting := [1]
  lhsBatch := []
  rhsBatch := []
  wf := dot_S2x128_S128x128_S2x128_1_0_0_1_n_n_wf
def dot_S5000x256_S128x256_S5000x128_1_1_0_0_n_n : DotDims S5000x256 S128x256 S5000x128 where
  lhsContracting := [1]
  rhsContracting := [1]
  lhsNonContracting := [0]
  rhsNonContracting := [0]
  lhsBatch := []
  rhsBatch := []
  wf := dot_S5000x256_S128x256_S5000x128_1_1_0_0_n_n_wf
def dot_S128x128_S2x128_S128x2_1_1_0_0_n_n : DotDims S128x128 S2x128 S128x2 where
  lhsContracting := [1]
  rhsContracting := [1]
  lhsNonContracting := [0]
  rhsNonContracting := [0]
  lhsBatch := []
  rhsBatch := []
  wf := dot_S128x128_S2x128_S128x2_1_1_0_0_n_n_wf

abbrev win0_0 : Pipeline.Window sig grid0 :=
  Pipeline.Window.ofSpec (Memref.whole main_arg2) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v21) S128x2x10x10x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v22) S2x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S128x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x2 : Shape := ⟨2, ![4096, 2]⟩
abbrev S100000x10 : Shape := ⟨2, ![100000, 10]⟩
abbrev S100000x256 : Shape := ⟨2, ![100000, 256]⟩
abbrev S128x256 : Shape := ⟨2, ![128, 256]⟩
abbrev S128x128 : Shape := ⟨2, ![128, 128]⟩
abbrev S2x128 : Shape := ⟨2, ![2, 128]⟩
abbrev S_ : Shape := ⟨0, ![]⟩
abbrev S4096x2x1 : Shape := ⟨3, ![4096, 2, 1]⟩
abbrev S4096x2x10 : Shape := ⟨3, ![4096, 2, 10]⟩
abbrev S4096x2x10x1 : Shape := ⟨4, ![4096, 2, 10, 1]⟩
abbrev S4096x2x10x10 : Shape := ⟨4, ![4096, 2, 10, 10]⟩
abbrev S4096x2x10x10x1 : Shape := ⟨5, ![4096, 2, 10, 10, 1]⟩
abbrev S4096x2x10x10x256 : Shape := ⟨5, ![4096, 2, 10, 10, 256]⟩
abbrev S4096x2x10x256 : Shape := ⟨4, ![4096, 2, 10, 256]⟩
abbrev S4096x2x10x128 : Shape := ⟨4, ![4096, 2, 10, 128]⟩
abbrev S4096x2x128 : Shape := ⟨3, ![4096, 2, 128]⟩
abbrev S4096x1x128 : Shape := ⟨3, ![4096, 1, 128]⟩
abbrev S4096x128 : Shape := ⟨2, ![4096, 128]⟩
abbrev S128x2 : Shape := ⟨2, ![128, 2]⟩

abbrev nBuf : Space → Nat
  | .hbm => 58
  | .vmem => 0
  | .smem => 0
  | _ => 0

abbrev bufTy : (tb : Table) → Fin (tcTables nBuf tb) → BufTy
  | .hbm, ⟨0, _⟩ => ⟨S4096x2, .i32⟩
  | .hbm, ⟨1, _⟩ => ⟨S100000x10, .i32⟩
  | .hbm, ⟨2, _⟩ => ⟨S100000x256, .f32⟩
  | .hbm, ⟨3, _⟩ => ⟨S128x256, .f32⟩
  | .hbm, ⟨4, _⟩ => ⟨S128x128, .f32⟩
  | .hbm, ⟨5, _⟩ => ⟨S2x128, .f32⟩
  | .hbm, ⟨6, _⟩ => ⟨S_, .i32⟩
  | .hbm, ⟨7, _⟩ => ⟨S4096x2, .i32⟩
  | .hbm, ⟨8, _⟩ => ⟨S4096x2, .i1⟩
  | .hbm, ⟨9, _⟩ => ⟨S_, .i32⟩
  | .hbm, ⟨10, _⟩ => ⟨S4096x2, .i32⟩
  | .hbm, ⟨11, _⟩ => ⟨S4096x2, .i32⟩
  | .hbm, ⟨12, _⟩ => ⟨S4096x2, .i32⟩
  | .hbm, ⟨13, _⟩ => ⟨S4096x2x1, .i32⟩
  | .hbm, ⟨14, _⟩ => ⟨S4096x2x10, .i32⟩
  | .hbm, ⟨15, _⟩ => ⟨S_, .i32⟩
  | .hbm, ⟨16, _⟩ => ⟨S4096x2x10, .i32⟩
  | .hbm, ⟨17, _⟩ => ⟨S4096x2x10, .i1⟩
  | .hbm, ⟨18, _⟩ => ⟨S_, .i32⟩
  | .hbm, ⟨19, _⟩ => ⟨S4096x2x10, .i32⟩
  | .hbm, ⟨20, _⟩ => ⟨S4096x2x10, .i32⟩
  | .hbm, ⟨21, _⟩ => ⟨S4096x2x10, .i32⟩
  | .hbm, ⟨22, _⟩ => ⟨S4096x2x10x1, .i32⟩
  | .hbm, ⟨23, _⟩ => ⟨S4096x2x10x10, .i32⟩
  | .hbm, ⟨24, _⟩ => ⟨S_, .i32⟩
  | .hbm, ⟨25, _⟩ => ⟨S4096x2x10x10, .i32⟩
  | .hbm, ⟨26, _⟩ => ⟨S4096x2x10x10, .i1⟩
  | .hbm, ⟨27, _⟩ => ⟨S_, .i32⟩
  | .hbm, ⟨28, _⟩ => ⟨S4096x2x10x10, .i32⟩
  | .hbm, ⟨29, _⟩ => ⟨S4096x2x10x10, .i32⟩
  | .hbm, ⟨30, _⟩ => ⟨S4096x2x10x10, .i32⟩
  | .hbm, ⟨31, _⟩ => ⟨S4096x2x10x10x1, .i32⟩
  | .hbm, ⟨32, _⟩ => ⟨S4096x2x10x10x256, .f32⟩
  | .hbm, ⟨33, _⟩ => ⟨S_, .f32⟩
  | .hbm, ⟨34, _⟩ => ⟨S4096x2x10x256, .f32⟩
  | .hbm, ⟨35, _⟩ => ⟨S_, .f32⟩
  | .hbm, ⟨36, _⟩ => ⟨S4096x2x10x256, .f32⟩
  | .hbm, ⟨37, _⟩ => ⟨S4096x2x10x256, .f32⟩
  | .hbm, ⟨38, _⟩ => ⟨S4096x2x10x128, .f32⟩
  | .hbm, ⟨39, _⟩ => ⟨S_, .f32⟩
  | .hbm, ⟨40, _⟩ => ⟨S4096x2x10x128, .f32⟩
  | .hbm, ⟨41, _⟩ => ⟨S4096x2x10x128, .f32⟩
  | .hbm, ⟨42, _⟩ => ⟨S_, .f32⟩
  | .hbm, ⟨43, _⟩ => ⟨S4096x2x128, .f32⟩
  | .hbm, ⟨44, _⟩ => ⟨S_, .f32⟩
  | .hbm, ⟨45, _⟩ => ⟨S4096x2x128, .f32⟩
  | .hbm, ⟨46, _⟩ => ⟨S4096x2x128, .f32⟩
  | .hbm, ⟨47, _⟩ => ⟨S4096x2x128, .f32⟩
  | .hbm, ⟨48, _⟩ => ⟨S4096x1x128, .f32⟩
  | .hbm, ⟨49, _⟩ => ⟨S4096x128, .f32⟩
  | .hbm, ⟨50, _⟩ => ⟨S4096x1x128, .f32⟩
  | .hbm, ⟨51, _⟩ => ⟨S4096x128, .f32⟩
  | .hbm, ⟨52, _⟩ => ⟨S4096x128, .f32⟩
  | .hbm, ⟨53, _⟩ => ⟨S_, .f32⟩
  | .hbm, ⟨54, _⟩ => ⟨S4096x128, .f32⟩
  | .hbm, ⟨55, _⟩ => ⟨S4096x128, .f32⟩
  | .hbm, ⟨56, _⟩ => ⟨S128x2, .f32⟩
  | .hbm, ⟨57, _⟩ => ⟨S4096x2, .f32⟩
  | _, _ => ⟨S4096x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  bcast_S_S4096x2 : S_.BroadcastsInDim S4096x2 (![] : Fin 0 → Fin S4096x2.rank)
  bcast_S4096x2_S4096x2x1_0_1 : S4096x2.BroadcastsInDim S4096x2x1 (![0, 1] : Fin 2 → Fin S4096x2x1.rank)
  bcast_S_S4096x2x10 : S_.BroadcastsInDim S4096x2x10 (![] : Fin 0 → Fin S4096x2x10.rank)
  bcast_S4096x2x10_S4096x2x10x1_0_1_2 : S4096x2x10.BroadcastsInDim S4096x2x10x1 (![0, 1, 2] : Fin 3 → Fin S4096x2x10x1.rank)
  bcast_S_S4096x2x10x10 : S_.BroadcastsInDim S4096x2x10x10 (![] : Fin 0 → Fin S4096x2x10x10.rank)
  bcast_S4096x2x10x10_S4096x2x10x10x1_0_1_2_3 : S4096x2x10x10.BroadcastsInDim S4096x2x10x10x1 (![0, 1, 2, 3] : Fin 4 → Fin S4096x2x10x10x1.rank)
  reducesTo_S4096x2x10x10x256_S4096x2x10x256_d3 : S4096x2x10x10x256.ReducesTo [3] S4096x2x10x256
  h_S_ : 0 < S_.numel
  bcast_S_S4096x2x10x256 : S_.BroadcastsInDim S4096x2x10x256 (![] : Fin 0 → Fin S4096x2x10x256.rank)
  bcast_S_S4096x2x10x128 : S_.BroadcastsInDim S4096x2x10x128 (![] : Fin 0 → Fin S4096x2x10x128.rank)
  reducesTo_S4096x2x10x128_S4096x2x128_d2 : S4096x2x10x128.ReducesTo [2] S4096x2x128
  bcast_S_S4096x2x128 : S_.BroadcastsInDim S4096x2x128 (![] : Fin 0 → Fin S4096x2x128.rank)
  slices_S4096x2x128_S4096x1x128_0_0_0 : S4096x2x128.Slices ![0, 0, 0] S4096x1x128
  shapeCasts_S4096x1x128_S4096x128 : S4096x1x128.ShapeCasts S4096x128
  slices_S4096x2x128_S4096x1x128_0_1_0 : S4096x2x128.Slices ![0, 1, 0] S4096x1x128
  bcast_S_S4096x128 : S_.BroadcastsInDim S4096x128 (![] : Fin 0 → Fin S4096x128.rank)
  transposes_S2x128_S128x2_1_0 : S2x128.Transposes [1, 0] S128x2
  gather_S100000x10_S4096x2x1_S4096x2x10_2_0_n_n_0_2_110_wf : GatherDims.WF S100000x10 S4096x2x1 S4096x2x10 [2] [0] [] [0] [] 2 ![1, 10]
  gather_S100000x10_S4096x2x10x1_S4096x2x10x10_3_0_n_n_0_3_110_wf : GatherDims.WF S100000x10 S4096x2x10x1 S4096x2x10x10 [3] [0] [] [0] [] 3 ![1, 10]
  gather_S100000x256_S4096x2x10x10x1_S4096x2x10x10x256_4_0_n_n_0_4_1256_wf : GatherDims.WF S100000x256 S4096x2x10x10x1 S4096x2x10x10x256 [4] [0] [] [0] [] 4 ![1, 256]
  dot_S4096x2x10x256_S128x256_S4096x2x10x128_3_1_012_0_n_n_wf : DotDims.WF S4096x2x10x256 S128x256 S4096x2x10x128 [3] [1] [0, 1, 2] [0] [] []
  dot_S4096x2x128_S128x128_S4096x2x128_2_1_01_0_n_n_wf : DotDims.WF S4096x2x128 S128x128 S4096x2x128 [2] [1] [0, 1] [0] [] []
  dot_S4096x128_S128x2_S4096x2_1_0_0_1_n_n_wf : DotDims.WF S4096x128 S128x2 S4096x2 [1] [0] [0] [1] [] []

variable [Facts₀]

def gather_S100000x10_S4096x2x1_S4096x2x10_2_0_n_n_0_2_110 : GatherDims S100000x10 S4096x2x1 S4096x2x10 where
  offsetDims := [2]
  collapsedSliceDims := [0]
  operandBatchingDims := []
  startIndicesBatchingDims := []
  startIndexMap := [0]
  indexVectorDim := 2
  sliceSizes := ![1, 10]
  wf := gather_S100000x10_S4096x2x1_S4096x2x10_2_0_n_n_0_2_110_wf
def gather_S100000x10_S4096x2x10x1_S4096x2x10x10_3_0_n_n_0_3_110 : GatherDims S100000x10 S4096x2x10x1 S4096x2x10x10 where
  offsetDims := [3]
  collapsedSliceDims := [0]
  operandBatchingDims := []
  startIndicesBatchingDims := []
  startIndexMap := [0]
  indexVectorDim := 3
  sliceSizes := ![1, 10]
  wf := gather_S100000x10_S4096x2x10x1_S4096x2x10x10_3_0_n_n_0_3_110_wf
def gather_S100000x256_S4096x2x10x10x1_S4096x2x10x10x256_4_0_n_n_0_4_1256 : GatherDims S100000x256 S4096x2x10x10x1 S4096x2x10x10x256 where
  offsetDims := [4]
  collapsedSliceDims := [0]
  operandBatchingDims := []
  startIndicesBatchingDims := []
  startIndexMap := [0]
  indexVectorDim := 4
  sliceSizes := ![1, 256]
  wf := gather_S100000x256_S4096x2x10x10x1_S4096x2x10x10x256_4_0_n_n_0_4_1256_wf
def dot_S4096x2x10x256_S128x256_S4096x2x10x128_3_1_012_0_n_n : DotDims S4096x2x10x256 S128x256 S4096x2x10x128 where
  lhsContracting := [3]
  rhsContracting := [1]
  lhsNonContracting := [0, 1, 2]
  rhsNonContracting := [0]
  lhsBatch := []
  rhsBatch := []
  wf := dot_S4096x2x10x256_S128x256_S4096x2x10x128_3_1_012_0_n_n_wf
def dot_S4096x2x128_S128x128_S4096x2x128_2_1_01_0_n_n : DotDims S4096x2x128 S128x128 S4096x2x128 where
  lhsContracting := [2]
  rhsContracting := [1]
  lhsNonContracting := [0, 1]
  rhsNonContracting := [0]
  lhsBatch := []
  rhsBatch := []
  wf := dot_S4096x2x128_S128x128_S4096x2x128_2_1_01_0_n_n_wf
def dot_S4096x128_S128x2_S4096x2_1_0_0_1_n_n : DotDims S4096x128 S128x2 S4096x2 where
  lhsContracting := [1]
  rhsContracting := [0]
  lhsNonContracting := [0]
  rhsNonContracting := [1]
  lhsBatch := []
  rhsBatch := []
  wf := dot_S4096x128_S128x2_S4096x2_1_0_0_1_n_n_wf

class Facts : Prop extends Facts₀ where

variable [Facts]
-- ==== Proof.Spec.lean ====
/-
  The mathematics of the two programs, stated once, over the extended reals, with no program imported.

  Both programs read, for every edge `e`, endpoint `p`, first-hop slot `k` and second-hop slot `j`, ONE node
  `row e p k j` of a table with 100000 rows (the node a chain of two index look-ups arrives at, clamped into
  the table), and from there on they are arithmetic over the node features `feat[n,f]` and the three weight
  matrices `w1[d,f]`, `w2[g,d]`, `wc[c,g]`:

    kernel:     out[e,c] = Σ_d  ( ½ · (P[e,0,d] + P[e,1,d]) ) · ( Σ_g wc[c,g] · w2[g,d] )
                P[e,p,d] = ( Σ_k max( (Σ_j  Σ_f feat[row e p k j, f] · w1[d,f]) / 10 , 0 ) ) / 10

    reference:  out[e,c] = Σ_g  ( ½ · (H[e,0,g] + H[e,1,g]) ) · wc[c,g]
                H[e,p,g] = Σ_d Q[e,p,d] · w2[g,d]
                Q[e,p,d] = ( Σ_k max( Σ_f ((Σ_j feat[row e p k j, f]) / 10) · w1[d,f] , 0 ) ) / 10

  On finite inputs P = Q (the mean over `j` commutes with the product against `w1`: a finite sum of finite
  products distributes) and the two outer double sums over `d` and `g` are one sum in two orders.
  The constants `10` and `½` are kept as the f32 words both programs spell.
-/
import Idealize.ShloMosaic.PureOps.Ideal
import Idealize.ShloMosaic.Lib.ValueIdx

noncomputable section

open scoped BigOperators

namespace Cert.Spec

open Idealize.ShloMosaic Idealize.ShloMosaic.ValueIdx

/-- The table row a start index selects: the index word read as a signed integer and clamped into
    `[0, 99999]` (a negative word reads as row 0, a word past the end as the last row). -/
def rowOf (I : (⟨5, ![4096, 2, 10, 10, 1]⟩ : Shape).Idx → BitVec 32)
    (e : Fin 4096) (p : Fin 2) (k : Fin 10) (j : Fin 10) : Fin 100000 :=
  ⟨min (I (ix5 e p k j (0 : Fin 1))).toInt.toNat 99999, by omega⟩

/-- Layer 1 applied to every node: `embed[n,d] = Σ_f feat[n,f] · w1[d,f]`. -/
def embedArr (feat : (⟨2, ![100000, 256]⟩ : Shape).Idx → EReal) (w1 : (⟨2, ![128, 256]⟩ : Shape).Idx → EReal) :
    (⟨2, ![100000, 128]⟩ : Shape).Idx → EReal :=
  fun i => ∑ f : Fin 256, feat (ix2 (i 0) f) * w1 (ix2 (i 1) f)

/-- The two weight matrices after layer 1 folded into one: `wcomb[c,d] = Σ_g wc[c,g] · w2[g,d]`. -/
def wcombArr (wc : (⟨2, ![2, 128]⟩ : Shape).Idx → EReal) (w2 : (⟨2, ![128, 128]⟩ : Shape).Idx → EReal) :
    (⟨2, ![2, 128]⟩ : Shape).Idx → EReal :=
  fun i => ∑ g : Fin 128, wc (ix2 (i 0) g) * w2 (ix2 g (i 1))

/-- Of a gathered array `G[e,p,k,j,d]`: the mean over `j`, the positive part, then the mean over `k`. -/
def pool (G : (⟨5, ![4096, 2, 10, 10, 128]⟩ : Shape).Idx → EReal) (e : Fin 4096) (p : Fin 2) (d : Fin 128) : EReal :=
  Ideal.div (∑ k : Fin 10, max (Ideal.div (∑ j : Fin 10, G (ix5 e p k j d)) (Ideal.ofBits .f32 0x41200000#32)) 0)
    (Ideal.ofBits .f32 0x41200000#32)

/-- What the second kernel leaves of a gathered array and the folded weights: the two endpoints' pooled
    rows averaged, then the product with `wcomb`. -/
def fusedArr (G : (⟨5, ![4096, 2, 10, 10, 128]⟩ : Shape).Idx → EReal) (wcomb : (⟨2, ![2, 128]⟩ : Shape).Idx → EReal) :
    (⟨2, ![4096, 2]⟩ : Shape).Idx → EReal :=
  fun i => ∑ d : Fin 128,
    (Ideal.ofBits .f32 0x3F000000#32 * (pool G (i 0) 0 d + pool G (i 0) 1 d)) * wcomb (ix2 (i 1) d)

/-- The kernel side as one function of the row map and the four float arrays. -/
def kernelArr (row : Fin 4096 → Fin 2 → Fin 10 → Fin 10 → Fin 100000)
    (feat : (⟨2, ![100000, 256]⟩ : Shape).Idx → EReal) (w1 : (⟨2, ![128, 256]⟩ : Shape).Idx → EReal)
    (w2 : (⟨2, ![128, 128]⟩ : Shape).Idx → EReal) (wc : (⟨2, ![2, 128]⟩ : Shape).Idx → EReal) :
    (⟨2, ![4096, 2]⟩ : Shape).Idx → EReal :=
  fusedArr (fun y => embedArr feat w1 (ix2 (row (y 0) (y 1) (y 2) (y 3)) (y 4))) (wcombArr wc w2)

/-- The reference's mean of the raw features over the second-hop slots. -/
def refMeanFeat (row : Fin 4096 → Fin 2 → Fin 10 → Fin 10 → Fin 100000)
    (feat : (⟨2, ![100000, 256]⟩ : Shape).Idx → EReal) (e : Fin 4096) (p : Fin 2) (k : Fin 10) (f : Fin 256) : EReal :=
  Ideal.div (∑ j : Fin 10, feat (ix2 (row e p k j) f)) (Ideal.ofBits .f32 0x41200000#32)

/-- The reference's layer 1 with its positive part, averaged over the first-hop slots. -/
def refPool (row : Fin 4096 → Fin 2 → Fin 10 → Fin 10 → Fin 100000)
    (feat : (⟨2, ![100000, 256]⟩ : Shape).Idx → EReal) (w1 : (⟨2, ![128, 256]⟩ : Shape).Idx → EReal)
    (e : Fin 4096) (p : Fin 2) (d : Fin 128) : EReal :=
  Ideal.div (∑ k : Fin 10, max (∑ f : Fin 256, refMeanFeat row feat e p k f * w1 (ix2 d f)) 0)
    (Ideal.ofBits .f32 0x41200000#32)

/-- The reference's layer 2. -/
def refLayer2 (row : Fin 4096 → Fin 2 → Fin 10 → Fin 10 → Fin 100000)
    (feat : (⟨2, ![100000, 256]⟩ : Shape).Idx → EReal) (w1 : (⟨2, ![128, 256]⟩ : Shape).Idx → EReal)
    (w2 : (⟨2, ![128, 128]⟩ : Shape).Idx → EReal) (e : Fin 4096) (p : Fin 2) (g : Fin 128) : EReal :=
  ∑ d : Fin 128, refPool row feat w1 e p d * w2 (ix2 g d)

/-- The reference side as one function of the row map and the four float arrays. -/
def refArr (row : Fin 4096 → Fin 2 → Fin 10 → Fin 10 → Fin 100000)
    (feat : (⟨2, ![100000, 256]⟩ : Shape).Idx → EReal) (w1 : (⟨2, ![128, 256]⟩ : Shape).Idx → EReal)
    (w2 : (⟨2, ![128, 128]⟩ : Shape).Idx → EReal) (wc : (⟨2, ![2, 128]⟩ : Shape).Idx → EReal) :
    (⟨2, ![4096, 2]⟩ : Shape).Idx → EReal :=
  fun i => ∑ g : Fin 128,
    (Ideal.ofBits .f32 0x3F000000#32 * (refLayer2 row feat w1 w2 (i 0) 0 g + refLayer2 row feat w1 w2 (i 0) 1 g))
      * wc (ix2 (i 1) g)

/-- An array of extended reals all of whose entries are real numbers. -/
def Finite {s : Shape} (x : s.Idx → EReal) : Prop := ∀ i, ∃ r : ℝ, x i = (r : EReal)

end Cert.Spec

end
-- ==== Proof.Algebra.lean ====
/-
  The arithmetic of the two programs agrees on arrays of real numbers.

  Every law the comparison needs (a finite sum of products distributes, a common factor is pulled through a
  sum, two finite sums are exchanged) holds over the reals and fails at the infinities of the extended reals.
  So the proof first reads every stage of both sides, on inputs all of whose entries are real, as the coercion
  of a real expression: a finite sum of coercions is the coercion of the sum, the division by the word for
  `10` is the product with the real `1/10`, the positive part against the extended-real `0` is the real positive
  part. Two real identities are then left:

    (Σ_j Σ_f F j f · W f) · (1/10) = Σ_f ((Σ_j F j f) · (1/10)) · W f
    Σ_d (h · (P d + P' d)) · (Σ_g C g · V g d) = Σ_g (h · (Σ_d P d · V g d + Σ_d P' d · V g d)) · C g

  the first a distribution and an exchange of the sums over `j` and `f`, the second a distribution and an
  exchange of the sums over `d` and `g`.
-/
import proofs.«119978_j30099130811051_2_alg».proof.Proof.Spec

noncomputable section

open scoped BigOperators

namespace Cert.Spec

open Idealize.ShloMosaic Idealize.ShloMosaic.ValueIdx

/-! ### The two constants -/

/-- The word `0x41200000` denotes the real `10`. -/
theorem ofBits_ten : Ideal.ofBits .f32 0x41200000#32 = ((10 : ℝ) : EReal) := by
  simp [Ideal.ofBits, Ideal.ieee, -EReal.coe_mul]; norm_num

/-- The word `0x3F000000` denotes the real `1/2`. -/
theorem ofBits_half : Ideal.ofBits .f32 0x3F000000#32 = ((1 / 2 : ℝ) : EReal) := by
  simp [Ideal.ofBits, Ideal.ieee, -EReal.coe_mul]; norm_num

/-! ### Pushing the coercion out of one stage -/

/-- A finite sum of coerced reals is the coercion of the real sum. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, EReal.coe_add, ih]

/-- Dividing a real by the word for `10` multiplies it by the real `1/10`. -/
theorem div_ten (x : ℝ) :
    Ideal.div (x : EReal) (Ideal.ofBits .f32 0x41200000#32) = ((x * (1 / 10) : ℝ) : EReal) := by
  rw [ofBits_ten, Ideal.div_coe (by norm_num), EReal.coe_mul]

/-- The positive part of a real, taken in the extended reals, is the real positive part. -/
theorem max_zero (x : ℝ) : max (x : EReal) 0 = ((max x 0 : ℝ) : EReal) := by
  rw [← EReal.coe_zero]
  exact (EReal.coe_strictMono.monotone.map_max).symm

/-- An array with real entries is the coercion of an array of reals. -/
theorem Finite.exists_coe {s : Shape} {x : s.Idx → EReal} (h : Finite x) :
    ∃ r : s.Idx → ℝ, x = fun i => (r i : EReal) := by
  choose r hr using h
  exact ⟨r, funext hr⟩

/-! ### The stages over the reals -/

/-- Layer 1 over the reals: `Σ_f feat[n,f] · w1[d,f]`. -/
def embedR (feat : (⟨2, ![100000, 256]⟩ : Shape).Idx → ℝ) (w1 : (⟨2, ![128, 256]⟩ : Shape).Idx → ℝ) :
    (⟨2, ![100000, 128]⟩ : Shape).Idx → ℝ :=
  fun i => ∑ f : Fin 256, feat (ix2 (i 0) f) * w1 (ix2 (i 1) f)

/-- The folded weights over the reals: `Σ_g wc[c,g] · w2[g,d]`. -/
def wcombR (wc : (⟨2, ![2, 128]⟩ : Shape).Idx → ℝ) (w2 : (⟨2, ![128, 128]⟩ : Shape).Idx → ℝ) :
    (⟨2, ![2, 128]⟩ : Shape).Idx → ℝ :=
  fun i => ∑ g : Fin 128, wc (ix2 (i 0) g) * w2 (ix2 g (i 1))

/-- The gathered layer-1 rows over the reals. -/
def gatherR (row : Fin 4096 → Fin 2 → Fin 10 → Fin 10 → Fin 100000)
    (feat : (⟨2, ![100000, 256]⟩ : Shape).Idx → ℝ) (w1 : (⟨2, ![128, 256]⟩ : Shape).Idx → ℝ) :
    (⟨5, ![4096, 2, 10, 10, 128]⟩ : Shape).Idx → ℝ :=
  fun y => embedR feat w1 (ix2 (row (y 0) (y 1) (y 2) (y 3)) (y 4))

/-- The two means and the positive part between them, over the reals. -/
def poolR (G : Fin 10 → Fin 10 → ℝ) : ℝ :=
  (∑ k : Fin 10, max ((∑ j : Fin 10, G k j) * (1 / 10)) 0) * (1 / 10)

/-- The reference's pooled layer 1 over the reals. -/
def refPoolR (row : Fin 4096 → Fin 2 → Fin 10 → Fin 10 → Fin 100000)
    (feat : (⟨2, ![100000, 256]⟩ : Shape).Idx → ℝ) (w1 : (⟨2, ![128, 256]⟩ : Shape).Idx → ℝ)
    (e : Fin 4096) (p : Fin 2) (d : Fin 128) : ℝ :=
  (∑ k : Fin 10, max (∑ f : Fin 256, ((∑ j : Fin 10, feat (ix2 (row e p k j) f)) * (1 / 10)) * w1 (ix2 d f)) 0)
    * (1 / 10)

theorem embedArr_coe (feat : (⟨2, ![100000, 256]⟩ : Shape).Idx → ℝ) (w1 : (⟨2, ![128, 256]⟩ : Shape).Idx → ℝ)
    (i : (⟨2, ![100000, 128]⟩ : Shape).Idx) :
    embedArr (fun i => (feat i : EReal)) (fun i => (w1 i : EReal)) i = ((embedR feat w1 i : ℝ) : EReal) := by
  unfold embedArr embedR
  simp only [← EReal.coe_mul, coe_sum]

theorem wcombArr_coe (wc : (⟨2, ![2, 128]⟩ : Shape).Idx → ℝ) (w2 : (⟨2, ![128, 128]⟩ : Shape).Idx → ℝ)
    (i : (⟨2, ![2, 128]⟩ : Shape).Idx) :
    wcombArr (fun i => (wc i : EReal)) (fun i => (w2 i : EReal)) i = ((wcombR wc w2 i : ℝ) : EReal) := by
  unfold wcombArr wcombR
  simp only [← EReal.coe_mul, coe_sum]

theorem pool_coe (G : (⟨5, ![4096, 2, 10, 10, 128]⟩ : Shape).Idx → ℝ) (e : Fin 4096) (p : Fin 2) (d : Fin 128) :
    pool (fun y => (G y : EReal)) e p d = ((poolR (fun k j => G (ix5 e p k j d)) : ℝ) : EReal) := by
  unfold pool poolR
  simp only [coe_sum, div_ten, max_zero]

theorem refPool_coe (row : Fin 4096 → Fin 2 → Fin 10 → Fin 10 → Fin 100000)
    (feat : (⟨2, ![100000, 256]⟩ : Shape).Idx → ℝ) (w1 : (⟨2, ![128, 256]⟩ : Shape).Idx → ℝ)
    (e : Fin 4096) (p : Fin 2) (d : Fin 128) :
    refPool row (fun i => (feat i : EReal)) (fun i => (w1 i : EReal)) e p d
      = ((refPoolR row feat w1 e p d : ℝ) : EReal) := by
  unfold refPool refMeanFeat refPoolR
  simp only [coe_sum, div_ten, ← EReal.coe_mul, max_zero]

/-- The second kernel's arithmetic, on a real gathered array and real folded weights. -/
theorem fusedArr_coe (G : (⟨5, ![4096, 2, 10, 10, 128]⟩ : Shape).Idx → ℝ) (W : (⟨2, ![2, 128]⟩ : Shape).Idx → ℝ)
    (e : Fin 4096) (c : Fin 2) :
    fusedArr (fun y => (G y : EReal)) (fun i => (W i : EReal)) (ix2 e c)
      = ((∑ d : Fin 128, ((1 / 2 : ℝ) * (poolR (fun k j => G (ix5 e 0 k j d)) + poolR (fun k j => G (ix5 e 1 k j d))))
          * W (ix2 c d) : ℝ) : EReal) := by
  unfold fusedArr
  simp only [pool_coe, ofBits_half, ← EReal.coe_mul, ← EReal.coe_add, coe_sum]

/-- The kernel side is the second kernel's arithmetic on the gathered real rows and the real folded weights. -/
theorem kernelArr_coe (row : Fin 4096 → Fin 2 → Fin 10 → Fin 10 → Fin 100000)
    (feat : (⟨2, ![100000, 256]⟩ : Shape).Idx → ℝ) (w1 : (⟨2, ![128, 256]⟩ : Shape).Idx → ℝ)
    (w2 : (⟨2, ![128, 128]⟩ : Shape).Idx → ℝ) (wc : (⟨2, ![2, 128]⟩ : Shape).Idx → ℝ) :
    kernelArr row (fun i => (feat i : EReal)) (fun i => (w1 i : EReal)) (fun i => (w2 i : EReal))
        (fun i => (wc i : EReal))
      = fusedArr (fun y => ((gatherR row feat w1 y : ℝ) : EReal)) (fun i => ((wcombR wc w2 i : ℝ) : EReal)) :=
  congrArg₂ fusedArr (funext fun _ => embedArr_coe feat w1 _) (funext fun i => wcombArr_coe wc w2 i)

/-- The reference side, on real arrays. -/
theorem refArr_coe (row : Fin 4096 → Fin 2 → Fin 10 → Fin 10 → Fin 100000)
    (feat : (⟨2, ![100000, 256]⟩ : Shape).Idx → ℝ) (w1 : (⟨2, ![128, 256]⟩ : Shape).Idx → ℝ)
    (w2 : (⟨2, ![128, 128]⟩ : Shape).Idx → ℝ) (wc : (⟨2, ![2, 128]⟩ : Shape).Idx → ℝ)
    (e : Fin 4096) (c : Fin 2) :
    refArr row (fun i => (feat i : EReal)) (fun i => (w1 i : EReal)) (fun i => (w2 i : EReal))
        (fun i => (wc i : EReal)) (ix2 e c)
      = ((∑ g : Fin 128, ((1 / 2 : ℝ) * (∑ d : Fin 128, refPoolR row feat w1 e 0 d * w2 (ix2 g d)
          + ∑ d : Fin 128, refPoolR row feat w1 e 1 d * w2 (ix2 g d))) * wc (ix2 c g) : ℝ) : EReal) := by
  unfold refArr refLayer2
  simp only [refPool_coe, ofBits_half, ← EReal.coe_mul, ← EReal.coe_add, coe_sum]

/-! ### The two real identities -/

/-- The mean over `j` commutes with the product against `W`: distribute, and exchange the two sums. -/
theorem mean_mul_comm {ι κ : Type*} [Fintype ι] [Fintype κ] (F : ι → κ → ℝ) (W : κ → ℝ) (c : ℝ) :
    (∑ j, ∑ f, F j f * W f) * c = ∑ f, ((∑ j, F j f) * c) * W f := by
  rw [Finset.sum_comm]
  simp only [Finset.sum_mul]
  refine Finset.sum_congr rfl fun f _ => Finset.sum_congr rfl fun j _ => ?_
  ring

/-- The kernel's pooled layer 1 is the reference's. -/
theorem poolR_eq_refPoolR (row : Fin 4096 → Fin 2 → Fin 10 → Fin 10 → Fin 100000)
    (feat : (⟨2, ![100000, 256]⟩ : Shape).Idx → ℝ) (w1 : (⟨2, ![128, 256]⟩ : Shape).Idx → ℝ)
    (e : Fin 4096) (p : Fin 2) (d : Fin 128) :
    poolR (fun k j => gatherR row feat w1 (ix5 e p k j d)) = refPoolR row feat w1 e p d := by
  show (∑ k : Fin 10, max ((∑ j : Fin 10, ∑ f : Fin 256, feat (ix2 (row e p k j) f) * w1 (ix2 d f)) * (1 / 10)) 0)
      * (1 / 10)
    = (∑ k : Fin 10, max (∑ f : Fin 256, ((∑ j : Fin 10, feat (ix2 (row e p k j) f)) * (1 / 10)) * w1 (ix2 d f)) 0)
      * (1 / 10)
  simp only [mean_mul_comm]

/-- The outer double sum in its two orders: distribute, and exchange the sums over `d` and `g`. -/
theorem outer_sum_comm {ι κ : Type*} [Fintype ι] [Fintype κ] (h : ℝ) (P P' : ι → ℝ) (C : κ → ℝ) (V : κ → ι → ℝ) :
    ∑ d, (h * (P d + P' d)) * (∑ g, C g * V g d)
      = ∑ g, (h * (∑ d, P d * V g d + ∑ d, P' d * V g d)) * C g := by
  simp only [Finset.mul_sum, Finset.sum_mul, ← Finset.sum_add_distrib]
  rw [Finset.sum_comm]
  refine Finset.sum_congr rfl fun g _ => Finset.sum_congr rfl fun d _ => ?_
  ring

/-! ### The two sides -/

theorem kernelArr_eq_refArr (row : Fin 4096 → Fin 2 → Fin 10 → Fin 10 → Fin 100000)
    (feat : (⟨2, ![100000, 256]⟩ : Shape).Idx → EReal) (w1 : (⟨2, ![128, 256]⟩ : Shape).Idx → EReal)
    (w2 : (⟨2, ![128, 128]⟩ : Shape).Idx → EReal) (wc : (⟨2, ![2, 128]⟩ : Shape).Idx → EReal)
    (hfeat : Finite feat) (hw1 : Finite w1) (hw2 : Finite w2) (hwc : Finite wc) :
    kernelArr row feat w1 w2 wc = refArr row feat w1 w2 wc := by
  obtain ⟨featR, rfl⟩ := hfeat.exists_coe
  obtain ⟨w1R, rfl⟩ := hw1.exists_coe
  obtain ⟨w2R, rfl⟩ := hw2.exists_coe
  obtain ⟨wcR, rfl⟩ := hwc.exists_coe
  funext i
  obtain ⟨e, c, rfl⟩ : ∃ e c, i = ix2 e c := ⟨i 0, i 1, eq_ix2 i⟩
  rw [kernelArr_coe, fusedArr_coe, refArr_coe]
  simp only [poolR_eq_refPoolR]
  refine congrArg Real.toEReal ?_
  exact outer_sum_comm (1 / 2) (fun d => refPoolR row featR w1R e 0 d) (fun d => refPoolR row featR w1R e 1 d)
    (fun g => wcR (ix2 c g)) (fun g d => w2R (ix2 g d))

end Cert.Spec

end
-- ==== Proof.GatherRows.lean ====
/-
  Reading a gather of whole rows.

  A table `x` with 100000 rows of width `D` is gathered through an array `I` of start indices of shape
  [4096, 2, 10, 10, 1]: the result has shape [4096, 2, 10, 10, D], its first four axes the batch axes of the
  start indices and its last axis the offset along a row.  The table's row axis is collapsed and is the only
  axis the start index names; the slice is one whole row.

  The statement proved here: the result at (e, p, k, j, q) is the table at row `r` and column `q`, where `r`
  is the start index at (e, p, k, j, 0) read as a signed integer and clamped into [0, 99999].  On the row
  axis the operand coordinate is the clamped start (the slice has one row, so the clamp's upper end is
  100000 - 1) with no batch and no offset part; on the column axis the start is 0 (the start index does not
  name it), and the offset part is the result's coordinate on its one offset axis, that is `q`.
-/
import proofs.«119978_j30099130811051_2_alg».proof.Proof.Spec
import Idealize.ShloMosaic.PureOps.ShapeOps

noncomputable section

namespace Cert.Spec

open Idealize.ShloMosaic Idealize.ShloMosaic.ValueIdx

/-- The dimension numbers of a gather of whole rows of a `[100000, D]` table through start indices
    `[4096, 2, 10, 10, 1]`: the row axis collapsed and named by the start index, the column axis kept and read by the
    result's last axis. -/
abbrev rowDims (D : Nat) (wf : GatherDims.WF ⟨2, ![100000, D]⟩ ⟨5, ![4096, 2, 10, 10, 1]⟩ ⟨5, ![4096, 2, 10, 10, D]⟩
      [4] [0] [] [0] [] 4 ![1, D]) :
    GatherDims ⟨2, ![100000, D]⟩ ⟨5, ![4096, 2, 10, 10, 1]⟩ ⟨5, ![4096, 2, 10, 10, D]⟩ where
  offsetDims := [4]
  collapsedSliceDims := [0]
  operandBatchingDims := []
  startIndicesBatchingDims := []
  startIndexMap := [0]
  indexVectorDim := 4
  sliceSizes := ![1, D]
  wf := wf

/-- The gather read at `(e, p, k, j, q)`: the table at the row the start index at `(e, p, k, j, 0)` selects and
    column `q`. -/
theorem gather_rows_apply {α : Type} {D : Nat}
    (wf : GatherDims.WF ⟨2, ![100000, D]⟩ ⟨5, ![4096, 2, 10, 10, 1]⟩ ⟨5, ![4096, 2, 10, 10, D]⟩
      [4] [0] [] [0] [] 4 ![1, D])
    (x : (⟨2, ![100000, D]⟩ : Shape).Idx → α)
    (I : (⟨5, ![4096, 2, 10, 10, 1]⟩ : Shape).Idx → BitVec 32)
    (e : Fin 4096) (p : Fin 2) (k : Fin 10) (j : Fin 10) (q : Fin D) :
    Host.gather (rowDims D wf) x I (ix5 e p k j q) = x (ix2 (rowOf I e p k j) q) := by
  have h10 : ¬ ((1 : Fin 2) = 0) := by decide
  unfold Host.gather
  congr 1
  funext a
  refine Fin.ext ?_
  match a with
  | ⟨0, _⟩ =>
    show (rowDims D wf).start (ix5 e p k j q) I 0 + (rowDims D wf).batchCoord (ix5 e p k j q) 0
      + (rowDims D wf).offCoord (ix5 e p k j q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims D wf).startIndexMap from List.mem_singleton.mpr rfl)]
    have hsi : (rowDims D wf).siIdx (ix5 e p k j q) ⟨List.idxOf (0 : Fin 2) (rowDims D wf).startIndexMap,
        List.idxOf_lt_length_iff.2 (List.mem_singleton.mpr rfl)⟩ = ix5 e p k j (0 : Fin 1) := by
      funext b; refine Fin.ext ?_
      match b with
      | ⟨0, _⟩ => rfl
      | ⟨1, _⟩ => rfl
      | ⟨2, _⟩ => rfl
      | ⟨3, _⟩ => rfl
      | ⟨4, _⟩ => rfl
    rw [hsi]
    rfl
  | ⟨1, _⟩ =>
    show (rowDims D wf).start (ix5 e p k j q) I 1 + (rowDims D wf).batchCoord (ix5 e p k j q) 1
      + (rowDims D wf).offCoord (ix5 e p k j q) 1 = _
    rw [GatherDims.batchCoord_eq_zero _ _ _ List.not_mem_nil]
    unfold GatherDims.start
    rw [dif_neg (show (1 : Fin 2) ∉ (rowDims D wf).startIndexMap from
      fun h => h10 (List.mem_singleton.mp h))]
    simp only [Nat.add_zero, Nat.zero_add]
    unfold GatherDims.offCoord
    rw [dif_pos (show (1 : Fin 2) ∈ (rowDims D wf).sKept from (GatherDims.mem_sKept _ _).mpr
      ⟨fun h => h10 (List.mem_singleton.mp h), List.not_mem_nil⟩)]
    rfl

end Cert.Spec

end
-- ==== Proof.Wcomb.lean ====
/-
  The two weight matrices after the first layer, folded into one.

  The host's `dot_general` of `wc : [2, 128]` and `w2 : [128, 128]`, contracting `wc`'s axis 1 against `w2`'s
  axis 0 with no batch axes, is over the extended reals the plain sum of products: its element at `(c, d)` is
  `Σ_g wc[c, g] · w2[g, d]`.  The contraction has one axis, of size 128, so the sum over contraction indices
  is a sum over `g : Fin 128`; at result index `(c, d)` and contraction coordinate `g` the left operand is read
  at `(c, g)` (axis 0 is the left operand's one free axis, the result's axis 0; axis 1 is contracted) and the
  right operand at `(g, d)` (axis 0 is contracted; axis 1 is the right operand's one free axis, the result's
  axis 1).
-/
import proofs.«119978_j30099130811051_2_alg».proof.Proof.Spec
import proofs.«119978_j30099130811051_2_alg».proof.KernelIdeal
import Idealize.ShloMosaic.PureOps.Ideal.Laws
import Idealize.ShloMosaic.Lib.ValueIdx

noncomputable section

open scoped BigOperators

namespace Cert.KernelIdeal.WcombValue

open Cert.KernelIdeal Idealize.ShloMosaic Idealize.ShloMosaic.ValueIdx

variable [Cert.KernelIdeal.Facts]

/-- The left operand's axis 0 is its free axis: it reads the result's axis 0. -/
theorem lhs_0 (i : S2x128.Idx) (q : dot_S2x128_S128x128_S2x128_1_0_0_1_n_n.contr.Idx) :
    (dot_S2x128_S128x128_S2x128_1_0_0_1_n_n.lhsIdx i q 0).val = (i 0).val := by
  unfold DotDims.lhsIdx
  rw [dif_neg (show ¬(0 : Fin S2x128.rank) ∈ dot_S2x128_S128x128_S2x128_1_0_0_1_n_n.lhsBatch from List.not_mem_nil),
    dif_pos (show (0 : Fin S2x128.rank) ∈ dot_S2x128_S128x128_S2x128_1_0_0_1_n_n.lhsNonContracting from
      List.mem_singleton.mpr rfl)]
  rfl

/-- The left operand's axis 1 is contracted: it reads the contraction index. -/
theorem lhs_1 (i : S2x128.Idx) (q : dot_S2x128_S128x128_S2x128_1_0_0_1_n_n.contr.Idx) :
    (dot_S2x128_S128x128_S2x128_1_0_0_1_n_n.lhsIdx i q 1).val = (q ⟨0, Nat.one_pos⟩).val :=
  dot_S2x128_S128x128_S2x128_1_0_0_1_n_n.lhsIdx_val_of_single rfl i q

/-- The right operand's axis 0 is contracted: it reads the contraction index. -/
theorem rhs_0 (i : S2x128.Idx) (q : dot_S2x128_S128x128_S2x128_1_0_0_1_n_n.contr.Idx) :
    (dot_S2x128_S128x128_S2x128_1_0_0_1_n_n.rhsIdx i q 0).val = (q ⟨0, Nat.one_pos⟩).val :=
  dot_S2x128_S128x128_S2x128_1_0_0_1_n_n.rhsIdx_val_of_single rfl i q

/-- The right operand's axis 1 is its free axis: it reads the result's axis 1. -/
theorem rhs_1 (i : S2x128.Idx) (q : dot_S2x128_S128x128_S2x128_1_0_0_1_n_n.contr.Idx) :
    (dot_S2x128_S128x128_S2x128_1_0_0_1_n_n.rhsIdx i q 1).val = (i 1).val := by
  unfold DotDims.rhsIdx
  rw [dif_neg (show ¬(1 : Fin S128x128.rank) ∈ dot_S2x128_S128x128_S2x128_1_0_0_1_n_n.rhsBatch from List.not_mem_nil),
    dif_pos (show (1 : Fin S128x128.rank) ∈ dot_S2x128_S128x128_S2x128_1_0_0_1_n_n.rhsNonContracting from
      List.mem_singleton.mpr rfl)]
  rfl

/-- The host's product of `wc` and `w2` is the folded weight matrix `wcomb[c,d] = Σ_g wc[c,g] · w2[g,d]`. -/
theorem wcomb_eq (wc : FVec Ideal S2x128 .f32) (w2 : FVec Ideal S128x128 .f32) :
    Host.dotGeneral (F := Ideal) dot_S2x128_S128x128_S2x128_1_0_0_1_n_n none wc w2 = Cert.Spec.wcombArr wc w2 := by
  funext i
  obtain ⟨c, d, rfl⟩ : ∃ c d, i = ix2 c d := ⟨i 0, i 1, eq_ix2 i⟩
  simp only [Host.dotGeneral]
  rw [Ideal.dotGeneral_apply,
    ← Equiv.sum_comp (contrEquiv1 dot_S2x128_S128x128_S2x128_1_0_0_1_n_n 128 rfl rfl).symm]
  unfold Cert.Spec.wcombArr
  refine Finset.sum_congr rfl fun g _ => ?_
  have hg := contrEquiv1_symm_val dot_S2x128_S128x128_S2x128_1_0_0_1_n_n 128 rfl rfl g
  have el : dot_S2x128_S128x128_S2x128_1_0_0_1_n_n.lhsIdx (ix2 c d)
      ((contrEquiv1 dot_S2x128_S128x128_S2x128_1_0_0_1_n_n 128 rfl rfl).symm g) = ix2 c g :=
    funext fun a => Fin.ext (by
      match a with
      | ⟨0, _⟩ => exact lhs_0 _ _
      | ⟨1, _⟩ => exact (lhs_1 _ _).trans hg)
  have er : dot_S2x128_S128x128_S2x128_1_0_0_1_n_n.rhsIdx (ix2 c d)
      ((contrEquiv1 dot_S2x128_S128x128_S2x128_1_0_0_1_n_n 128 rfl rfl).symm g) = ix2 g d :=
    funext fun a => Fin.ext (by
      match a with
      | ⟨0, _⟩ => exact (rhs_0 _ _).trans hg
      | ⟨1, _⟩ => exact rhs_1 _ _)
  rw [el, er]

end Cert.KernelIdeal.WcombValue

end
-- ==== Proof.Embed.lean ====
/-
  The first kernel region, read as one array.

  The region runs over 20 grid points. Point `t` reads rows `5000·t … 5000·t + 4999` of the feature table
  `feat[100000,256]` and the whole weight matrix `w1[128,256]`, multiplies the row tile by the transposed
  weights (the contraction runs over the 256 feature columns of both operands; the changes of float format
  around the product are the identity on the extended reals, and the accumulator the product is added into is
  the zero word), and writes the `5000 × 128` product back as rows `5000·t … 5000·t + 4999` of the output.

  Hence every grid point writes a block of ONE function of the region-entry contents,

      embed[n,d] = Σ_f feat[n,f] · w1[d,f],

  the row `n` is written by the point `n / 5000` (and by that point alone), and the 20 tiles fill the
  `100000` rows: after the last point the output array is `embed` at every index.
-/
import proofs.«119978_j30099130811051_2_alg».proof.Proof.Spec
import proofs.«119978_j30099130811051_2_alg».proof.Proof.Gen.KernelIdeal.Frame
import Idealize.ShloMosaic.Lib.Pipeline.Value
import Idealize.ShloMosaic.Lib.ValueIdx
import Idealize.ShloMosaic.PureOps.Ideal.Laws

noncomputable section

open scoped BigOperators

namespace Cert.KernelIdeal.EmbedValue

open Cert.KernelIdeal Cert.KernelIdeal.Gen Idealize.ShloMosaic Idealize.ShloMosaic.ValueIdx Idealize.ShloMosaic.TcCoe
open Idealize.ShloMosaic.Pipeline (Dat)

/-! ## One tile's product at an index -/

/-- The left operand of the tile product at output index `(r, d)` and contraction index `q`: row `r`. -/
theorem lhs_row (i : S5000x128.Idx) (q : dot_S5000x256_S128x256_S5000x128_1_1_0_0_n_n.contr.Idx) :
    (dot_S5000x256_S128x256_S5000x128_1_1_0_0_n_n.lhsIdx i q 0).val = (i 0).val := by
  unfold DotDims.lhsIdx
  rw [dif_neg (show ¬(0 : Fin S5000x256.rank) ∈ dot_S5000x256_S128x256_S5000x128_1_1_0_0_n_n.lhsBatch by decide),
    dif_pos (show (0 : Fin S5000x256.rank) ∈ dot_S5000x256_S128x256_S5000x128_1_1_0_0_n_n.lhsNonContracting by decide)]
  rfl

/-- … and column `q`. -/
theorem lhs_col (i : S5000x128.Idx) (q : dot_S5000x256_S128x256_S5000x128_1_1_0_0_n_n.contr.Idx) :
    (dot_S5000x256_S128x256_S5000x128_1_1_0_0_n_n.lhsIdx i q 1).val = (q ⟨0, by decide⟩).val :=
  dot_S5000x256_S128x256_S5000x128_1_1_0_0_n_n.lhsIdx_val_of_single rfl i q

/-- The right operand at output index `(r, d)` and contraction index `q`: row `d` of the weights. -/
theorem rhs_row (i : S5000x128.Idx) (q : dot_S5000x256_S128x256_S5000x128_1_1_0_0_n_n.contr.Idx) :
    (dot_S5000x256_S128x256_S5000x128_1_1_0_0_n_n.rhsIdx i q 0).val = (i 1).val := by
  unfold DotDims.rhsIdx
  rw [dif_neg (show ¬(0 : Fin S128x256.rank) ∈ dot_S5000x256_S128x256_S5000x128_1_1_0_0_n_n.rhsBatch by decide),
    dif_pos (show (0 : Fin S128x256.rank) ∈ dot_S5000x256_S128x256_S5000x128_1_1_0_0_n_n.rhsNonContracting by decide)]
  rfl

/-- … and column `q`. -/
theorem rhs_col (i : S5000x128.Idx) (q : dot_S5000x256_S128x256_S5000x128_1_1_0_0_n_n.contr.Idx) :
    (dot_S5000x256_S128x256_S5000x128_1_1_0_0_n_n.rhsIdx i q 1).val = (q ⟨0, by decide⟩).val :=
  dot_S5000x256_S128x256_S5000x128_1_1_0_0_n_n.rhsIdx_val_of_single rfl i q

/-- What the body stores, at row `r` and column `d` of the tile: the sum over the 256 feature columns of the
    tile's row `r` against the weights' row `d`. -/
theorem tile_apply (x0 : Vec Ideal S5000x256 .f32) (x1 : Vec Ideal S128x256 .f32) (r : Fin 5000) (d : Fin 128) :
    k0_pay1 (F := Ideal) x0 x1 (ix2 r d) = ∑ f : Fin 256, x0 (ix2 r f) * x1 (ix2 d f) := by
  unfold k0_pay1
  refine (Ideal.matmul_constant_zero_apply dot_S5000x256_S128x256_S5000x128_1_1_0_0_n_n none
    (truncf .bf16 x0 bitsLt_bf16_f32) (truncf .bf16 x1 bitsLt_bf16_f32) (ix2 r d)).trans ?_
  rw [← Equiv.sum_comp (contrEquiv1 dot_S5000x256_S128x256_S5000x128_1_1_0_0_n_n 256 rfl rfl).symm]
  refine Finset.sum_congr rfl fun k _ => ?_
  have hk := contrEquiv1_symm_val dot_S5000x256_S128x256_S5000x128_1_1_0_0_n_n 256 rfl rfl k
  have el : dot_S5000x256_S128x256_S5000x128_1_1_0_0_n_n.lhsIdx (ix2 r d)
      ((contrEquiv1 dot_S5000x256_S128x256_S5000x128_1_1_0_0_n_n 256 rfl rfl).symm k) = ix2 r k :=
    funext fun a => Fin.ext (by
      match a with
      | ⟨0, _⟩ => exact lhs_row _ _
      | ⟨1, _⟩ => exact (lhs_col _ _).trans hk)
  have er : dot_S5000x256_S128x256_S5000x128_1_1_0_0_n_n.rhsIdx (ix2 r d)
      ((contrEquiv1 dot_S5000x256_S128x256_S5000x128_1_1_0_0_n_n 256 rfl rfl).symm k) = ix2 d k :=
    funext fun a => Fin.ext (by
      match a with
      | ⟨0, _⟩ => exact rhs_row _ _
      | ⟨1, _⟩ => exact (rhs_col _ _).trans hk)
  rw [el, er]
  rfl

/-! ## Where a tile sits in its array -/

/-- The zero offsets the body's whole-buffer loads and store are printed with. -/
theorem zero_offsets : (![0, 0] : Fin 2 → Nat) = fun _ => 0 := funext fun a => by fin_cases a <;> rfl

/-- The three index maps over the 20 grid points: the feature tile and the output tile are tile `t` along the
    rows and the only tile along the columns; the weights are one tile. -/
theorem tile_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A grid point is below 20. -/
theorem point_lt (t : Fin cfg0.N) : t.val < 20 := by
  have h := t.isLt
  have hN : cfg0.N = 20 := N_0
  omega

/-- The feature tile at point `t`, read off ANY table `A`: its row `r` is row `5000·t + r` of the table. -/
theorem feat_tile_apply (t : Fin cfg0.N) (A : S100000x256.Idx → EReal) (r : Fin 5000) (f : Fin 256) (n : Fin 100000)
    (hn : n.val = 5000 * t.val + r.val) :
    (((cfg0.win 0).blk t).view.read (Elt Ideal) A : S5000x256.Idx → EReal) (ix2 r f) = A (ix2 n f) := by
  obtain ⟨e0, e1, -⟩ := tile_index t
  rw [View.read_apply]
  show A (((cfg0.win 0).blk t).view.emb (ix2 r f)) = A (ix2 n f)
  refine congrArg A (funext fun a => Fin.ext ?_)
  match a with
  | ⟨0, _⟩ => show win0_0.index t (0 : Fin 2) * 5000 + 1 * r.val = n.val; omega
  | ⟨1, _⟩ => show win0_0.index t (1 : Fin 2) * 256 + 1 * f.val = f.val; omega

/-- The weights' one tile, read off ANY matrix `B`, is the matrix. -/
theorem weight_tile_apply (t : Fin cfg0.N) (B : S128x256.Idx → EReal) (d : Fin 128) (f : Fin 256) :
    (((cfg0.win 1).blk t).view.read (Elt Ideal) B : S128x256.Idx → EReal) (ix2 d f) = B (ix2 d f) := by
  obtain ⟨-, -, e2, e3, -⟩ := tile_index t
  rw [View.read_apply]
  show B (((cfg0.win 1).blk t).view.emb (ix2 d f)) = B (ix2 d f)
  refine congrArg B (funext fun a => Fin.ext ?_)
  match a with
  | ⟨0, _⟩ => show win0_1.index t (0 : Fin 2) * 128 + 1 * d.val = d.val; omega
  | ⟨1, _⟩ => show win0_1.index t (1 : Fin 2) * 256 + 1 * f.val = f.val; omega

/-- The output tile at point `t`, read off ANY array `G`: its row `r` is row `5000·t + r` of the array. -/
theorem out_tile_apply (t : Fin cfg0.N) (G : S100000x128.Idx → EReal) (r : Fin 5000) (d : Fin 128) (n : Fin 100000)
    (hn : n.val = 5000 * t.val + r.val) :
    (((cfg0.win 2).blk t).view.read (Elt Ideal) G : S5000x128.Idx → EReal) (ix2 r d) = G (ix2 n d) := by
  obtain ⟨-, -, -, -, e4, e5⟩ := tile_index t
  rw [View.read_apply]
  show G (((cfg0.win 2).blk t).view.emb (ix2 r d)) = G (ix2 n d)
  refine congrArg G (funext fun a => Fin.ext ?_)
  match a with
  | ⟨0, _⟩ => show win0_2.index t (0 : Fin 2) * 5000 + 1 * r.val = n.val; omega
  | ⟨1, _⟩ => show win0_2.index t (1 : Fin 2) * 128 + 1 * d.val = d.val; omega

/-- The write-back moves the whole staging buffer: nothing of a tile is cut away. -/
theorem cut_whole (t : Fin cfg0.N) (X : S5000x128.Idx → EReal) :
    ((cfg0.win 2).cut (grid0.coords t) X : S5000x128.Idx → EReal) = X := rfl

/-! ## What a grid point writes back -/

/-- Over ANY pair of tiles that are rows `5000·t …` of a table `feat` and the whole of a matrix `w1`: the product
    the body stores, written back whole, is tile `t` of `embed feat w1`. -/
theorem tile_is_block (t : Fin cfg0.N) (x0 : Vec Ideal S5000x256 .f32) (x1 : Vec Ideal S128x256 .f32)
    (feat : S100000x256.Idx → EReal) (w1 : S128x256.Idx → EReal)
    (h0 : ∀ (r : Fin 5000) (f : Fin 256) (n : Fin 100000), n.val = 5000 * t.val + r.val →
      x0 (ix2 r f) = feat (ix2 n f))
    (h1 : ∀ (d : Fin 128) (f : Fin 256), x1 (ix2 d f) = w1 (ix2 d f)) :
    (cfg0.win 2).cut (grid0.coords t) (k0_pay1 (F := Ideal) x0 x1)
      = ((cfg0.win 2).blk t).view.read (Elt Ideal) (Cert.Spec.embedArr feat w1) := by
  refine (cut_whole t _).trans ?_
  funext j
  obtain ⟨r, d, rfl⟩ : ∃ (r : Fin 5000) (d : Fin 128), j = ix2 r d := ⟨j 0, j 1, eq_ix2 j⟩
  have ht := point_lt t
  rw [out_tile_apply t _ r d ⟨5000 * t.val + r.val, by omega⟩ rfl, tile_apply]
  unfold Cert.Spec.embedArr
  refine Finset.sum_congr rfl fun f _ => ?_
  rw [h0 r f ⟨5000 * t.val + r.val, by omega⟩ rfl, h1 d f]

variable (V : (c : Dev nD) → (b : Ref sig .tc) → Buf (Elt Ideal) ((c : Thread nD τ).loc b))

/-- What point `t` writes back is tile `t` of `embed` of the region-entry contents of the feature table and the
    weights. -/
theorem flushed_eq (c : Dev nD) (t : Fin cfg0.N) :
    (dat0 (F := Ideal) V c).flushed 2 t
      = ((cfg0.win 2).blk t).view.read (Elt Ideal) (Cert.Spec.embedArr (V c main_arg2) (V c main_arg3)) := by
  show (cfg0.win 2).cut (grid0.coords t) ((dat0 (F := Ideal) V c).after 2 t) = _
  rw [after0_2]
  unfold Gen.out0_2
  rw [View.canon_unit_zero zero_offsets]
  simp only [View.ld_unit_zero (S := S5000x256) zero_offsets, View.ld_unit_zero (S := S128x256) zero_offsets]
  exact tile_is_block t (iblk0 V c 0 t) (iblk0 V c 1 t) (V c main_arg2) (V c main_arg3)
    (fun r f n hn => feat_tile_apply t (V c main_arg2) r f n hn)
    (fun d f => weight_tile_apply t (V c main_arg3) d f)

/-! ## The tiles fill the array -/

/-- An index of the output array is in point `t`'s tile iff each coordinate is in the tile's range on its axis. -/
theorem mem_tile (t : Fin cfg0.N) (i : S100000x128.Idx) :
    i ∈ ((cfg0.win 2).blk t).view.set ↔ ∀ a : Fin 2,
      win0_2.index t a * S5000x128.size a ≤ (i a).val
        ∧ (i a).val < win0_2.index t a * S5000x128.size a + S5000x128.size a := by
  show i ∈ ((View.whole main_call0_v0).slice (win0_2.rect t)).set ↔ _
  rw [View.set_slice_whole, Rect.mem_set_unit]
  exact Iff.rfl

/-- Row `n` of the output lies in the tile of point `n / 5000`, which is written back. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have hq : (i 0).val / 5000 < cfg0.N := by rw [hN]; omega
  obtain ⟨-, -, -, -, e4, e5⟩ := tile_index ⟨(i 0).val / 5000, hq⟩
  have e4' : win0_2.index ⟨(i 0).val / 5000, hq⟩ (0 : Fin 2) = (i 0).val / 5000 := e4
  refine ⟨⟨(i 0).val / 5000, hq⟩, flush0_2 _, ?_⟩
  rw [mem_tile]
  intro a
  match a with
  | ⟨0, _⟩ =>
    show win0_2.index ⟨(i 0).val / 5000, hq⟩ (0 : Fin 2) * 5000 ≤ (i 0).val
      ∧ (i 0).val < win0_2.index ⟨(i 0).val / 5000, hq⟩ (0 : Fin 2) * 5000 + 5000
    omega
  | ⟨1, _⟩ =>
    show win0_2.index ⟨(i 0).val / 5000, hq⟩ (1 : Fin 2) * 128 ≤ (i 1).val
      ∧ (i 1).val < win0_2.index ⟨(i 0).val / 5000, hq⟩ (1 : Fin 2) * 128 + 128
    omega

/-! ## The array after the region -/

/-- After the 20 grid points the output array holds `embed[n,d] = Σ_f feat[n,f] · w1[d,f]` of the region-entry
    contents of the feature table and of the weights. -/
theorem arr (V : (c : Dev nD) → (b : Ref sig .tc) → Buf (Elt Ideal) ((c : Thread nD τ).loc b)) (c : Dev nD) :
    (Gen.dat0 (F := Ideal) V c).arrAt 2 cfg0.N = Cert.Spec.embedArr (V c main_arg2) (V c main_arg3) :=
  (dat0 (F := Ideal) V c).arrAt_eq_of_cover 2 (Cert.Spec.embedArr (V c main_arg2) (V c main_arg3))
    (fun t _ => flushed_eq V c t) covered

end Cert.KernelIdeal.EmbedValue

end
-- ==== Proof.Fused.lean ====
/-
  The second kernel region's output array.

  At each of its 32 grid points the fused kernel holds a tile `g[r,p,k,j,d]` of 128 edges of the gathered array
  and the whole folded weight matrix `w[c,d]`, and stores, for edge `r` of the tile and class `c`,

      Σ_d ( ½ · (P[r,0,d] + P[r,1,d]) ) · w[c,d],     P[r,p,d] = ( Σ_k max( (Σ_j g[r,p,k,j,d]) / 10 , 0 ) ) / 10.

  The first half of this file reads the body's arithmetic at one index: the two lane sums as sums over one
  coordinate, the two middle-axis slices with their unit axis dropped as the rows `p = 0` and `p = 1`, the
  matrix product as a sum over the contracted coordinate; everything else acts entry by entry. The second half
  places the tiles: point `t` reads edges `128·t … 128·t + 127` of the gathered array and writes the same rows of
  the result, so edge `e` is written by point `e / 128` and by no other, and after the last point the result
  array holds, at every `(e, c)`, the formula above read on the whole gathered array.
-/
import proofs.«119978_j30099130811051_2_alg».proof.Proof.Spec
import proofs.«119978_j30099130811051_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.FusedValue

open Cert.KernelIdeal Cert.KernelIdeal.Gen Idealize.ShloMosaic Idealize.ShloMosaic.ValueIdx Idealize.ShloMosaic.TcCoe
open Idealize.ShloMosaic.Pipeline (Dat)

/-! ## The body's arithmetic at one index -/

/-- The pooled value of one tile: the mean over `j`, the positive part, the mean over `k`. -/
def poolTile (g : S128x2x10x10x128.Idx → EReal) (r : Fin 128) (p : Fin 2) (d : Fin 128) : EReal :=
  Ideal.div (∑ k : Fin 10, max (Ideal.div (∑ j : Fin 10, g (ix5 r p k j d)) (Ideal.ofBits .f32 0x41200000#32)) 0)
    (Ideal.ofBits .f32 0x41200000#32)

/-- The sum over the fourth axis of a rank-5 tile, at `(r, p, k, d)`: the sum over `j` of the entries
    `(r, p, k, j, d)`. -/
theorem sum_axis3 (src : FVec Ideal S128x2x10x10x128 .f32) (h : S128x2x10x10x128.Reduces [3] S128x2x10x128)
    (hφ : FKind.Formats .f32) (hacc : (0x00000000#32 : BitVec 32) = FKind.add.neutral .f32 hφ)
    (r : Fin 128) (p : Fin 2) (k : Fin 10) (d : Fin 128) :
    multiReduction (F := Ideal) .add [3] S128x2x10x128 src 0x00000000#32 h hφ hacc (ix4 r p k d)
      = ∑ j : Fin 10, src (ix5 r p k j d) :=
  (Ideal.multiReduction_add_single src _ h hφ hacc (ix4 r p k d)).trans
    (Finset.sum_congr rfl fun j _ => congrArg src (funext fun a => Fin.ext (by
      match a with
      | ⟨0, _⟩ => rfl
      | ⟨1, _⟩ => rfl
      | ⟨2, _⟩ => rfl
      | ⟨3, _⟩ => rfl
      | ⟨4, _⟩ => rfl)))

/-- The sum over the third axis of a rank-4 tile, at `(r, p, d)`: the sum over `k` of the entries `(r, p, k, d)`. -/
theorem sum_axis2 (src : FVec Ideal S128x2x10x128 .f32) (h : S128x2x10x128.Reduces [2] S128x2x128)
    (hφ : FKind.Formats .f32) (hacc : (0x00000000#32 : BitVec 32) = FKind.add.neutral .f32 hφ)
    (r : Fin 128) (p : Fin 2) (d : Fin 128) :
    multiReduction (F := Ideal) .add [2] S128x2x128 src 0x00000000#32 h hφ hacc (ix3 r p d)
      = ∑ k : Fin 10, src (ix4 r p k d) :=
  (Ideal.multiReduction_add_single src _ h hφ hacc (ix3 r p d)).trans
    (Finset.sum_congr rfl fun k _ => congrArg src (funext fun a => Fin.ext (by
      match a with
      | ⟨0, _⟩ => rfl
      | ⟨1, _⟩ => rfl
      | ⟨2, _⟩ => rfl
      | ⟨3, _⟩ => rfl)))

/-- Row `p` of the middle axis, cut out as a `[128, 1, 128]` slab and flattened to `[128, 128]`, reads at
    `(r, d)` the entry `(r, p, d)`. -/
theorem row_apply (o : Nat) (X : S128x2x128.Idx → EReal) (hs : S128x2x128.Slices ![0, o, 0] S128x1x128)
    (hc : S128x1x128.ShapeCasts S128x128) (r : Fin 128) (p : Fin 2) (hp : p.val = o) (d : Fin 128) :
    shapeCast S128x128 (extractStridedSlice S128x1x128 ![0, o, 0] X hs) hc (ix2 r d) = X (ix3 r p d) :=
  (shapeCast_apply _ hc (ix2 r d) (ix3 r (0 : Fin 1) d) (by
    rw [Shape.rowMajor_val_three, Shape.rowMajor_val_two]
    show (r.val * 1 + 0) * 128 + d.val = r.val * 128 + d.val
    omega)).trans
    (slice3_axis1_apply o X hs r (0 : Fin 1) d p (by rw [hp]; rfl))

/-- On the row axis of the left factor the matrix product reads the output's row. -/
theorem lhs_row (i : S128x2.Idx) (q : dot_S128x128_S2x128_S128x2_1_1_0_0_n_n.contr.Idx) :
    (dot_S128x128_S2x128_S128x2_1_1_0_0_n_n.lhsIdx i q 0).val = (i 0).val := by
  unfold DotDims.lhsIdx
  rw [dif_neg (show ¬(0 : Fin S128x128.rank) ∈ dot_S128x128_S2x128_S128x2_1_1_0_0_n_n.lhsBatch by decide),
    dif_pos (show (0 : Fin S128x128.rank) ∈ dot_S128x128_S2x128_S128x2_1_1_0_0_n_n.lhsNonContracting by decide)]
  rfl

/-- On the row axis of the right factor it reads the output's column. -/
theorem rhs_row (i : S128x2.Idx) (q : dot_S128x128_S2x128_S128x2_1_1_0_0_n_n.contr.Idx) :
    (dot_S128x128_S2x128_S128x2_1_1_0_0_n_n.rhsIdx i q 0).val = (i 1).val := by
  unfold DotDims.rhsIdx
  rw [dif_neg (show ¬(0 : Fin S2x128.rank) ∈ dot_S128x128_S2x128_S128x2_1_1_0_0_n_n.rhsBatch by decide),
    dif_pos (show (0 : Fin S2x128.rank) ∈ dot_S128x128_S2x128_S128x2_1_1_0_0_n_n.rhsNonContracting by decide)]
  rfl

/-- The product against the weight matrix, contracted over the second axis of both factors, into a zero
    accumulator: at `(r, c)` the sum over `d` of `L[r,d] · R[c,d]`. -/
theorem matmul_at (L : FVec Ideal S128x128 .bf16) (R : FVec Ideal S2x128 .bf16) (r : Fin 128) (c : Fin 2) :
    matmul (F := Ideal) dot_S128x128_S2x128_S128x2_1_1_0_0_n_n none L R
        (constant (F := Ideal) S128x2 .f32 0x00000000#32) (ix2 r c)
      = ∑ d : Fin 128, L (ix2 r d) * R (ix2 c d) := by
  refine (Ideal.matmul_constant_zero_apply dot_S128x128_S2x128_S128x2_1_1_0_0_n_n none L R (ix2 r c)).trans ?_
  rw [← Equiv.sum_comp (contrEquiv1 dot_S128x128_S2x128_S128x2_1_1_0_0_n_n 128 rfl rfl).symm]
  refine Finset.sum_congr rfl fun k _ => ?_
  have hk := contrEquiv1_symm_val dot_S128x128_S2x128_S128x2_1_1_0_0_n_n 128 rfl rfl k
  have el : dot_S128x128_S2x128_S128x2_1_1_0_0_n_n.lhsIdx (ix2 r c)
      ((contrEquiv1 dot_S128x128_S2x128_S128x2_1_1_0_0_n_n 128 rfl rfl).symm k) = ix2 r k :=
    funext fun a => Fin.ext (by
      match a with
      | ⟨0, _⟩ => exact lhs_row _ _
      | ⟨1, _⟩ => exact (dot_S128x128_S2x128_S128x2_1_1_0_0_n_n.lhsIdx_val_of_single rfl (ix2 r c) _).trans hk)
  have er : dot_S128x128_S2x128_S128x2_1_1_0_0_n_n.rhsIdx (ix2 r c)
      ((contrEquiv1 dot_S128x128_S2x128_S128x2_1_1_0_0_n_n 128 rfl rfl).symm k) = ix2 c k :=
    funext fun a => Fin.ext (by
      match a with
      | ⟨0, _⟩ => exact rhs_row _ _
      | ⟨1, _⟩ => exact (dot_S128x128_S2x128_S128x2_1_1_0_0_n_n.rhsIdx_val_of_single rfl (ix2 r c) _).trans hk)
  rw [el, er]

/-- THE BODY AT AN INDEX: what the kernel stores at `(r, c)` of its output tile, from the tile `g` of the
    gathered array and the folded weights `w`. -/
theorem pay_apply (g : Vec Ideal S128x2x10x10x128 .bf16) (w : Vec Ideal S2x128 .f32) (r : Fin 128) (c : Fin 2) :
    k1_pay1 (F := Ideal) g w (ix2 r c)
      = ∑ d : Fin 128, (Ideal.ofBits .f32 0x3F000000#32 * (poolTile g r 0 d + poolTile g r 1 d)) * w (ix2 c d) := by
  unfold k1_pay1
  refine (matmul_at _ _ r c).trans ?_
  refine Finset.sum_congr rfl fun d _ => ?_
  refine congrArg₂ (· * ·) ?_ ?_
  · refine congrArg (Ideal.ofBits .f32 0x3F000000#32 * ·) ?_
    refine congrArg₂ (· + ·) ?_ ?_
    · refine (row_apply 0 _ _ _ r 0 rfl d).trans ?_
      unfold poolTile
      refine congrArg₂ Ideal.div ?_ rfl
      refine (sum_axis2 _ _ _ _ r 0 d).trans ?_
      refine Finset.sum_congr rfl fun k _ => ?_
      refine congrArg₂ max ?_ Ideal.ofBits_zero_f32
      refine congrArg₂ Ideal.div ?_ rfl
      refine (sum_axis3 _ _ _ _ r 0 k d).trans ?_
      refine Finset.sum_congr rfl fun j _ => ?_
      exact congrFun (shapeCast_self g _) _
    · refine (row_apply 1 _ _ _ r 1 rfl d).trans ?_
      unfold poolTile
      refine congrArg₂ Ideal.div ?_ rfl
      refine (sum_axis2 _ _ _ _ r 1 d).trans ?_
      refine Finset.sum_congr rfl fun k _ => ?_
      refine congrArg₂ max ?_ Ideal.ofBits_zero_f32
      refine congrArg₂ Ideal.div ?_ rfl
      refine (sum_axis3 _ _ _ _ r 1 k d).trans ?_
      refine Finset.sum_congr rfl fun j _ => ?_
      exact congrFun (shapeCast_self g _) _
  · exact congrFun (shapeCast_self w _) (ix2 c d)

/-! ## Where a tile sits in its array -/

/-- The zero offsets the body's whole-buffer loads and store are printed with. -/
theorem zero2 : (![0, 0] : Fin 2 → Nat) = fun _ => 0 := funext fun a => by fin_cases a <;> rfl
theorem zero5 : (![0, 0, 0, 0, 0] : Fin 5 → Nat) = fun _ => 0 := funext fun a => by fin_cases a <;> rfl

/-- Where each window's tile sits at point `t`: the gathered array's and the result's tile number `t` along
    the edge axis and number 0 along every other axis; the weights' only tile. -/
theorem tile_index : ∀ t : Fin cfg1.N,
    win1_0.index t (0 : Fin 5) = t.val ∧ win1_0.index t (1 : Fin 5) = 0 ∧ win1_0.index t (2 : Fin 5) = 0
    ∧ win1_0.index t (3 : Fin 5) = 0 ∧ win1_0.index t (4 : Fin 5) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A grid point is below 32. -/
theorem point_lt (t : Fin cfg1.N) : t.val < 32 := by
  have h := t.isLt
  have hN : cfg1.N = 32 := N_1
  omega

/-- The gathered array's tile at point `t`, read off ANY array `A`: its row `r` is edge `128·t + r`. -/
theorem gathered_tile_apply (t : Fin cfg1.N) (A : S4096x2x10x10x128.Idx → EReal) (r : Fin 128) (p : Fin 2)
    (k j : Fin 10) (d : Fin 128) (e : Fin 4096) (he : e.val = 128 * t.val + r.val) :
    (((cfg1.win 0).blk t).view.read (Elt Ideal) A : S128x2x10x10x128.Idx → EReal) (ix5 r p k j d)
      = A (ix5 e p k j d) := by
  obtain ⟨e0, e1, e2, e3, e4, -⟩ := tile_index t
  rw [View.read_apply]
  show A (((cfg1.win 0).blk t).view.emb (ix5 r p k j d)) = A (ix5 e p k j d)
  refine congrArg A (funext fun a => Fin.ext ?_)
  match a with
  | ⟨0, _⟩ => show win1_0.index t (0 : Fin 5) * 128 + 1 * r.val = e.val; omega
  | ⟨1, _⟩ => show win1_0.index t (1 : Fin 5) * 2 + 1 * p.val = p.val; omega
  | ⟨2, _⟩ => show win1_0.index t (2 : Fin 5) * 10 + 1 * k.val = k.val; omega
  | ⟨3, _⟩ => show win1_0.index t (3 : Fin 5) * 10 + 1 * j.val = j.val; omega
  | ⟨4, _⟩ => show win1_0.index t (4 : Fin 5) * 128 + 1 * d.val = d.val; omega

/-- The weights' one tile, read off ANY matrix `B`, is the matrix. -/
theorem weight_tile_apply (t : Fin cfg1.N) (B : S2x128.Idx → EReal) (c : Fin 2) (d : Fin 128) :
    (((cfg1.win 1).blk t).view.read (Elt Ideal) B : S2x128.Idx → EReal) (ix2 c d) = B (ix2 c d) := by
  obtain ⟨-, -, -, -, -, e5, e6, -⟩ := tile_index t
  rw [View.read_apply]
  show B (((cfg1.win 1).blk t).view.emb (ix2 c d)) = B (ix2 c d)
  refine congrArg B (funext fun a => Fin.ext ?_)
  match a with
  | ⟨0, _⟩ => show win1_1.index t (0 : Fin 2) * 2 + 1 * c.val = c.val; omega
  | ⟨1, _⟩ => show win1_1.index t (1 : Fin 2) * 128 + 1 * d.val = d.val; omega

/-- The result's tile at point `t`, read off ANY array `G`: its row `r` is edge `128·t + r`. -/
theorem out_tile_apply (t : Fin cfg1.N) (G : S4096x2.Idx → EReal) (r : Fin 128) (c : Fin 2) (e : Fin 4096)
    (he : e.val = 128 * t.val + r.val) :
    (((cfg1.win 2).blk t).view.read (Elt Ideal) G : S128x2.Idx → EReal) (ix2 r c) = G (ix2 e c) := by
  obtain ⟨-, -, -, -, -, -, -, e7, e8⟩ := tile_index t
  rw [View.read_apply]
  show G (((cfg1.win 2).blk t).view.emb (ix2 r c)) = G (ix2 e c)
  refine congrArg G (funext fun a => Fin.ext ?_)
  match a with
  | ⟨0, _⟩ => show win1_2.index t (0 : Fin 2) * 128 + 1 * r.val = e.val; omega
  | ⟨1, _⟩ => show win1_2.index t (1 : Fin 2) * 2 + 1 * c.val = c.val; omega

/-- The write-back moves the whole staging buffer: nothing of a tile is cut away. -/
theorem cut_whole (t : Fin cfg1.N) (X : S128x2.Idx → EReal) :
    ((cfg1.win 2).cut (grid1.coords t) X : S128x2.Idx → EReal) = X := rfl

/-! ## What a grid point writes back -/

/-- Over ANY pair of tiles that are edges `128·t …` of a gathered array `G` and the whole of a weight matrix
    `W`: what the body stores, written back whole, is tile `t` of the whole-array formula of `G` and `W`. -/
theorem tile_is_block (t : Fin cfg1.N) (g : Vec Ideal S128x2x10x10x128 .bf16) (w : Vec Ideal S2x128 .f32)
    (G : S4096x2x10x10x128.Idx → EReal) (W : S2x128.Idx → EReal)
    (h0 : ∀ (r : Fin 128) (p : Fin 2) (k j : Fin 10) (d : Fin 128) (e : Fin 4096), e.val = 128 * t.val + r.val →
      g (ix5 r p k j d) = G (ix5 e p k j d))
    (h1 : ∀ (c : Fin 2) (d : Fin 128), w (ix2 c d) = W (ix2 c d)) :
    (cfg1.win 2).cut (grid1.coords t) (k1_pay1 (F := Ideal) g w)
      = ((cfg1.win 2).blk t).view.read (Elt Ideal) (Cert.Spec.fusedArr G W) := by
  refine (cut_whole t _).trans ?_
  funext y
  obtain ⟨r, c, rfl⟩ : ∃ (r : Fin 128) (c : Fin 2), y = ix2 r c := ⟨y 0, y 1, eq_ix2 y⟩
  have ht := point_lt t
  rw [out_tile_apply t _ r c ⟨128 * t.val + r.val, by omega⟩ rfl, pay_apply]
  show _ = ∑ d : Fin 128, (Ideal.ofBits .f32 0x3F000000#32
    * (Cert.Spec.pool G ⟨128 * t.val + r.val, by omega⟩ 0 d + Cert.Spec.pool G ⟨128 * t.val + r.val, by omega⟩ 1 d))
      * W (ix2 c d)
  refine Finset.sum_congr rfl fun d _ => ?_
  rw [h1 c d]
  unfold Cert.Spec.pool poolTile
  simp only [h0 r _ _ _ _ ⟨128 * t.val + r.val, by omega⟩ rfl]

variable (V : (c : Dev nD) → (b : Ref sig .tc) → Buf (Elt Ideal) ((c : Thread nD τ).loc b))

/-- What point `t` writes back is tile `t` of the whole-array formula of the region-entry contents of the
    gathered array and the folded weights. -/
theorem flushed_eq (c : Dev nD) (t : Fin cfg1.N) :
    (dat1 (F := Ideal) V c).flushed 2 t
      = ((cfg1.win 2).blk t).view.read (Elt Ideal) (Cert.Spec.fusedArr (V c main_call0_v21) (V c main_call0_v22)) := by
  show (cfg1.win 2).cut (grid1.coords t) ((dat1 (F := Ideal) V c).after 2 t) = _
  rw [after1_2]
  unfold Gen.out1_2
  rw [View.canon_unit_zero zero2]
  simp only [View.ld_unit_zero (S := S128x2x10x10x128) zero5, View.ld_unit_zero (S := S2x128) zero2]
  exact tile_is_block t (iblk1 V c 0 t) (iblk1 V c 1 t) (V c main_call0_v21) (V c main_call0_v22)
    (fun r p k j d e he => gathered_tile_apply t (V c main_call0_v21) r p k j d e he)
    (fun c' d => weight_tile_apply t (V c main_call0_v22) c' d)

/-! ## The tiles fill the array -/

/-- An index of the result is in point `t`'s tile iff each coordinate is in the tile's range on its axis. -/
theorem mem_tile (t : Fin cfg1.N) (i : S4096x2.Idx) :
    i ∈ ((cfg1.win 2).blk t).view.set ↔ ∀ a : Fin 2,
      win1_2.index t a * S128x2.size a ≤ (i a).val
        ∧ (i a).val < win1_2.index t a * S128x2.size a + S128x2.size a := by
  show i ∈ ((View.whole main_v0).slice (win1_2.rect t)).set ↔ _
  rw [View.set_slice_whole, Rect.mem_set_unit]
  exact Iff.rfl

/-- Edge `e` of the result lies in the tile of point `e / 128`, which is written back. -/
theorem covered (i : S4096x2.Idx) :
    ∃ t : Fin cfg1.N, (cfg1.win 2).flush t = true ∧ i ∈ ((cfg1.win 2).blk t).view.set := by
  have hi0 : (i 0).val < 4096 := (i 0).isLt
  have hi1 : (i 1).val < 2 := (i 1).isLt
  have hN : cfg1.N = 32 := N_1
  have hq : (i 0).val / 128 < cfg1.N := by rw [hN]; omega
  obtain ⟨-, -, -, -, -, -, -, e7, e8⟩ := tile_index ⟨(i 0).val / 128, hq⟩
  have e7' : win1_2.index ⟨(i 0).val / 128, hq⟩ (0 : Fin 2) = (i 0).val / 128 := e7
  refine ⟨⟨(i 0).val / 128, hq⟩, flush1_2 _, ?_⟩
  rw [mem_tile]
  intro a
  match a with
  | ⟨0, _⟩ =>
    show win1_2.index ⟨(i 0).val / 128, hq⟩ (0 : Fin 2) * 128 ≤ (i 0).val
      ∧ (i 0).val < win1_2.index ⟨(i 0).val / 128, hq⟩ (0 : Fin 2) * 128 + 128
    omega
  | ⟨1, _⟩ =>
    show win1_2.index ⟨(i 0).val / 128, hq⟩ (1 : Fin 2) * 2 ≤ (i 1).val
      ∧ (i 1).val < win1_2.index ⟨(i 0).val / 128, hq⟩ (1 : Fin 2) * 2 + 2
    omega

/-! ## The array after the region -/

/-- After the 32 grid points the result array holds, at every `(e, c)`, the two endpoints' pooled rows averaged and
    multiplied against the folded weights, of the region-entry contents of the gathered array and of the weights. -/
theorem arr (V : (c : Dev nD) → (b : Ref sig .tc) → Buf (Elt Ideal) ((c : Thread nD τ).loc b)) (c : Dev nD) :
    (Gen.dat1 (F := Ideal) V c).arrAt 2 cfg1.N = Cert.Spec.fusedArr (V c main_call0_v21) (V c main_call0_v22) :=
  (dat1 (F := Ideal) V c).arrAt_eq_of_cover 2 (Cert.Spec.fusedArr (V c main_call0_v21) (V c main_call0_v22))
    (fun t _ => flushed_eq V c t) covered

end Cert.KernelIdeal.FusedValue

end
-- ==== Proof.HostMid.lean ====
/-
  The run of the two-kernel program with its result named, and the host stretch between the two kernel regions
  read back as a term.

  * `run_named`: every weakly fair execution from a launch memory with zero counters terminates, and at the end the
    result array holds the last boundary's contents while each of the six argument arrays holds what it was launched
    with.
  * `W3_v0`, `V1_v0`: the result array at the last boundary is what the second region's write-backs leave; the
    first region's output array at the middle boundary is what the first region's write-backs leave.
  * `V2_v21`, `V2_v22`: what the second region finds in its two input arrays. The first is the rows of the first
    region's output gathered at the two-hop neighbour ids `idx2hop edges neigh`; the second is the product of the
    two small weight matrices. The ids are computed from the edge list and the neighbour table: an id below zero is
    wrapped by adding 100000, the neighbour rows are looked up, and this is done twice over, with a last wrap and a
    trailing unit axis.
  * `V0_arg2`, `V0_arg3`: the first region finds its two argument arrays as launched.
-/
import proofs.«119978_j30099130811051_2_alg».proof.Proof.Gen.KernelIdeal.Frame
import Idealize.ShloMosaic.Lib.StableHlo.Run

noncomputable section

namespace Cert.KernelIdeal.HostMid

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The two-hop neighbour ids -/

/-- The edge endpoints, an id below zero wrapped by adding 100000. -/
def ids0 (edges : IVec S4096x2 32) : IVec S4096x2 32 :=
  select (cmpi .slt edges (broadcastInDim S4096x2 ![] bcast_S_S4096x2 (constantI S_ 32 0#32)))
    (addi edges (broadcastInDim S4096x2 ![] bcast_S_S4096x2 (constantI S_ 32 100000#32)))
    edges

/-- The ten neighbours of each endpoint: the neighbour table's rows at the wrapped endpoints. -/
def hop1 (edges : IVec S4096x2 32) (neigh : IVec S100000x10 32) : IVec S4096x2x10 32 :=
  Host.gather gather_S100000x10_S4096x2x1_S4096x2x10_2_0_n_n_0_2_110 neigh
    (broadcastInDim S4096x2x1 ![0, 1] bcast_S4096x2_S4096x2x1_0_1 (ids0 edges))

/-- The one-hop neighbour ids, an id below zero wrapped by adding 100000. -/
def ids1 (edges : IVec S4096x2 32) (neigh : IVec S100000x10 32) : IVec S4096x2x10 32 :=
  select (cmpi .slt (hop1 edges neigh) (broadcastInDim S4096x2x10 ![] bcast_S_S4096x2x10 (constantI S_ 32 0#32)))
    (addi (hop1 edges neigh) (broadcastInDim S4096x2x10 ![] bcast_S_S4096x2x10 (constantI S_ 32 100000#32)))
    (hop1 edges neigh)

/-- The ten neighbours of each one-hop neighbour: the neighbour table's rows at the wrapped one-hop ids. -/
def hop2 (edges : IVec S4096x2 32) (neigh : IVec S100000x10 32) : IVec S4096x2x10x10 32 :=
  Host.gather gather_S100000x10_S4096x2x10x1_S4096x2x10x10_3_0_n_n_0_3_110 neigh
    (broadcastInDim S4096x2x10x1 ![0, 1, 2] bcast_S4096x2x10_S4096x2x10x1_0_1_2 (ids1 edges neigh))

/-- The two-hop neighbour ids, an id below zero wrapped by adding 100000. -/
def ids2 (edges : IVec S4096x2 32) (neigh : IVec S100000x10 32) : IVec S4096x2x10x10 32 :=
  select (cmpi .slt (hop2 edges neigh) (broadcastInDim S4096x2x10x10 ![] bcast_S_S4096x2x10x10 (constantI S_ 32 0#32)))
    (addi (hop2 edges neigh) (broadcastInDim S4096x2x10x10 ![] bcast_S_S4096x2x10x10 (constantI S_ 32 100000#32)))
    (hop2 edges neigh)

/-- The start indices of the last gather (the two-hop neighbour ids) as the host stretch computes them from the
    edge list and the neighbour table: wrap a negative id by adding 100000, look the neighbours up, twice, wrap
    again, add a unit axis. -/
def idx2hop (edges : IVec S4096x2 32) (neigh : IVec S100000x10 32) : IVec S4096x2x10x10x1 32 :=
  broadcastInDim S4096x2x10x10x1 ![0, 1, 2, 3] bcast_S4096x2x10x10_S4096x2x10x10x1_0_1_2_3 (ids2 edges neigh)

variable {F : FTy → Type} [FloatOps F]

/-! ## The host stretch over an arbitrary entry valuation -/

/-- The stretch's last gather: the rows of the first region's output at the two-hop neighbour ids. -/
theorem after_v21 (W : Valuation τ sig (Elt F)) :
    StableHlo.after (hostOps1 (F := F)) W (Proc.devRef .tc main_call0_v21)
      = Host.gather gather_S100000x128_S4096x2x10x10x1_S4096x2x10x10x128_4_0_n_n_0_4_1128
          (W (Proc.devRef .tc main_call0_v0))
          (idx2hop (W (Proc.devRef .tc main_arg0)) (W (Proc.devRef .tc main_arg1))) := by
  dsimp only [hostOps1]
  after_results_simp
  simp only [StableHlo.TRef.toBuf, StableHlo.TRef.ofBuf, cast_eq, id]
  rfl

/-- The stretch's last operation: the product of the two small weight matrices. -/
theorem after_v22 (W : Valuation τ sig (Elt F)) :
    StableHlo.after (hostOps1 (F := F)) W (Proc.devRef .tc main_call0_v22)
      = Host.dotGeneral dot_S2x128_S128x128_S2x128_1_0_0_1_n_n none
          (W (Proc.devRef .tc main_arg5)) (W (Proc.devRef .tc main_arg4)) := by
  dsimp only [hostOps1]
  after_results_simp
  simp only [StableHlo.TRef.toBuf, StableHlo.TRef.ofBuf, cast_eq, id]

/-! ## The run, with the result array named -/

variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- From any memory with zero counters every weakly fair execution of the program on the TensorCores terminates,
    nothing faulting, and in every final state the result array holds the last boundary's contents and each
    argument array what it was launched with: the launch over the three segments, the last thread state read
    against the final state, the result array left at the boundary's contents and each argument walked back to the
    launch memory. -/
theorem run_named : θ_run defs (onTc (τ := τ) (main (F := F))) ⟨m, fun _ => 0, ρ⟩ (fun r => ∀ c : Dev nD,
      r.2.mem ((c.tc : Thread nD τ).loc main_v0) = Gen.W3 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

/-! ## The boundaries' contents at the arrays the kernels meet -/

variable (c : Dev nD)

/-- The result array at the last boundary: what the second region's write-backs leave in its output window. -/
theorem W3_v0 : Gen.W3 m ρ c (Proc.devRef .tc main_v0) = (Gen.dat1 (Gen.V2 m ρ) c).arrAt 2 cfg1.N :=
  Gen.W3_arr m ρ c 2

/-- The first region's output array at the middle boundary: what its write-backs leave. -/
theorem V1_v0 : Gen.V1 m ρ c main_call0_v0 = (Gen.dat0 (Gen.V0 m ρ) c).arrAt 2 cfg0.N :=
  Gen.W1_arr m ρ c 2

/-- The first region finds its first argument array as launched. -/
theorem V0_arg2 : Gen.V0 m ρ c main_arg2 = m ((c.tc : Thread nD τ).loc main_arg2) := rfl

/-- The first region finds its second argument array as launched. -/
theorem V0_arg3 : Gen.V0 m ρ c main_arg3 = m ((c.tc : Thread nD τ).loc main_arg3) := rfl

/-- The second region's first input array: the rows of the first region's output gathered at the two-hop
    neighbour ids of the launched edge list and neighbour table. The first region writes neither of the two. -/
theorem V2_v21 : Gen.V2 m ρ c main_call0_v21
      = Host.gather gather_S100000x128_S4096x2x10x10x1_S4096x2x10x10x128_4_0_n_n_0_4_1128
          (Gen.V1 m ρ c main_call0_v0)
          (idx2hop (m ((c.tc : Thread nD τ).loc main_arg0)) (m ((c.tc : Thread nD τ).loc main_arg1))) := by
  have h := after_v21 (F := F) (Gen.W1 m ρ c)
  rw [Gen.W1_of_ne m ρ c main_arg0 (by decide), Gen.W1_of_ne m ρ c main_arg1 (by decide)] at h
  exact h

/-- The second region's second input array: the product of the two launched weight matrices. The first region
    writes neither of the two. -/
theorem V2_v22 : Gen.V2 m ρ c main_call0_v22
      = Host.dotGeneral dot_S2x128_S128x128_S2x128_1_0_0_1_n_n none
          (m ((c.tc : Thread nD τ).loc main_arg5)) (m ((c.tc : Thread nD τ).loc main_arg4)) := by
  have h := after_v22 (F := F) (Gen.W1 m ρ c)
  rw [Gen.W1_of_ne m ρ c main_arg5 (by decide), Gen.W1_of_ne m ρ c main_arg4 (by decide)] at h
  exact h

end Cert.KernelIdeal.HostMid

end
-- ==== Proof.KernelValue.lean ====
/-
  The kernel's result array as ONE function of the argument arrays, at the ideal values.

  The run leaves in the result buffer what the second kernel's write-backs leave (the fold of its 32 edge
  tiles); that array is the pooled-and-classified function `fusedArr` of the two arrays the second kernel reads:
  the gathered embedding rows and the folded weight matrix. The gathered array is the host's gather, through the
  two-hop neighbour ids, of the first kernel's output, which is the embedding `embedArr` of the features and the
  layer-1 weights; the folded matrix is the host's product of the classifier and layer-2 weights. A gather of
  whole rows reads, at (e,p,k,j,d), the table at the row the start index at (e,p,k,j) selects and column d, so
  the composite is `kernelArr` at the row map of the two-hop ids.
-/
import proofs.«119978_j30099130811051_2_alg».proof.Proof.Spec
import proofs.«119978_j30099130811051_2_alg».proof.Proof.GatherRows
import proofs.«119978_j30099130811051_2_alg».proof.Proof.Wcomb
import proofs.«119978_j30099130811051_2_alg».proof.Proof.Embed
import proofs.«119978_j30099130811051_2_alg».proof.Proof.Fused
import proofs.«119978_j30099130811051_2_alg».proof.Proof.HostMid

noncomputable section

namespace Cert.KernelIdeal.KernelValue

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The gather of embedding rows through any start indices, composed with the pooling kernel, is the kernel-side
    function at the row map of those indices. -/
theorem fused_gather_eq (feat : FVec Ideal S100000x256 .f32) (w1 : FVec Ideal S128x256 .f32)
    (wcomb : FVec Ideal S2x128 .f32) (I : IVec S4096x2x10x10x1 32) :
    Cert.Spec.fusedArr
        (Host.gather gather_S100000x128_S4096x2x10x10x1_S4096x2x10x10x128_4_0_n_n_0_4_1128 (Cert.Spec.embedArr feat w1) I) wcomb
      = Cert.Spec.fusedArr (fun y => Cert.Spec.embedArr feat w1 (ix2 (Cert.Spec.rowOf I (y 0) (y 1) (y 2) (y 3)) (y 4))) wcomb := by
  congr 1
  funext y
  obtain ⟨e, p, k, j, d, rfl⟩ : ∃ e p k j d, y = ix5 e p k j d := ⟨y 0, y 1, y 2, y 3, y 4, eq_ix5 y⟩
  exact Cert.Spec.gather_rows_apply (D := 128) _ (Cert.Spec.embedArr feat w1) I e p k j d

/-- The result buffer's final contents: the kernel-side function of the six argument arrays. -/
theorem result :
    Gen.W3 m ρ c (Proc.devRef .tc main_v0)
      = Cert.Spec.kernelArr (Cert.Spec.rowOf (HostMid.idx2hop (m ((c.tc : Thread nD τ).loc main_arg0)) (m ((c.tc : Thread nD τ).loc main_arg1))))
          (m ((c.tc : Thread nD τ).loc main_arg2)) (m ((c.tc : Thread nD τ).loc main_arg3))
          (m ((c.tc : Thread nD τ).loc main_arg4)) (m ((c.tc : Thread nD τ).loc main_arg5)) := by
  rw [HostMid.W3_v0 m ρ c, FusedValue.arr (Gen.V2 m ρ) c, HostMid.V2_v21 m ρ c, HostMid.V2_v22 m ρ c, HostMid.V1_v0 m ρ c,
    EmbedValue.arr (Gen.V0 m ρ) c, HostMid.V0_arg2 m ρ c, HostMid.V0_arg3 m ρ c, WcombValue.wcomb_eq, fused_gather_eq]
  rfl

end Cert.KernelIdeal.KernelValue

end
-- ==== Proof.RefValue.lean ====
/-
  The reference program's result, read entry by entry.

  After its three index look-ups the reference is arithmetic on the gathered features
  G[e,p,k,j,f] = feat[row e p k j, f]:

    M[e,p,k,f] = (0 + Σ_j G[e,p,k,j,f]) / 10                       (sum over the second-hop slots, then the mean)
    A[e,p,k,d] = max( Σ_f M[e,p,k,f] · w1[d,f] , 0 )               (layer 1 and its positive part)
    Q[e,p,d]   = (0 + Σ_k A[e,p,k,d]) / 10                         (mean over the first-hop slots)
    H[e,p,g]   = Σ_d Q[e,p,d] · w2[g,d]                            (layer 2)
    out[e,c]   = Σ_g ( ½ · (H[e,0,g] + H[e,1,g]) ) · wc[c,g]       (the two endpoints averaged, then the classifier;
                                                                     wc enters transposed, H's two endpoint rows through
                                                                     a slice and a reshape each)

  Each stage is read at an index built from its coordinates; the index maps of the layout stages (slice, reshape,
  transpose, the contractions' operand indices) are identified with coordinate tuples, the two zero words are the real
  number zero, and the words for ten and one half are left as they are spelled. The result is the specification's
  refArr, given that the gather stage reads feat at row e p k j.
-/
import proofs.«119978_j30099130811051_2_alg».proof.Proof.Spec
import proofs.«119978_j30099130811051_2_alg».proof.Proof.Gen.ReferenceIdeal.Read

noncomputable section

open scoped BigOperators

namespace Cert.ReferenceIdeal.RefValue

open Cert.ReferenceIdeal Cert.ReferenceIdeal.Read Idealize.ShloMosaic Idealize.ShloMosaic.ValueIdx

/-- The mean of the gathered features over the second-hop slots, at (e, p, k, f). -/
theorem meanFeat_value (x0 : (⟨S4096x2, .i32⟩ : BufTy).Contents (Elt Ideal)) (x1 : (⟨S100000x10, .i32⟩ : BufTy).Contents (Elt Ideal))
    (feat : (⟨S100000x256, .f32⟩ : BufTy).Contents (Elt Ideal))
    (row : Fin 4096 → Fin 2 → Fin 10 → Fin 10 → Fin 100000)
    (hg : ∀ (e : Fin 4096) (p : Fin 2) (k : Fin 10) (j : Fin 10) (f : Fin 256),
      val_main_v20 (F := Ideal) x0 x1 feat (ix5 e p k j f) = feat (ix2 (row e p k j) f))
    (e : Fin 4096) (p : Fin 2) (k : Fin 10) (f : Fin 256) :
    val_main_v23 (F := Ideal) x0 x1 feat (ix4 e p k f) = Cert.Spec.refMeanFeat row feat e p k f := by
  rw [val_main_v23_apply, val_main_v21_apply, val_main_v22_apply, val_main_cst_5_apply, val_main_cst_apply]
  rw [Ideal.hostDivf_def, Ideal.ofBits_def, Ideal.ofBits_def, Ideal.ofBits_zero_f32, zero_add]
  unfold Cert.Spec.refMeanFeat
  congr 1
  refine Finset.sum_congr rfl fun j _ => ?_
  have h21 : idx_main_v21 (ix4 e p k f) j = ix5 e p k j f :=
    funext fun a => Fin.ext (by match a with | ⟨0, _⟩ => rfl | ⟨1, _⟩ => rfl | ⟨2, _⟩ => rfl | ⟨3, _⟩ => rfl | ⟨4, _⟩ => rfl)
  rw [h21, hg]

/-- Layer 1 with its positive part, averaged over the first-hop slots, at (e, p, d). -/
theorem pool_value (x0 : (⟨S4096x2, .i32⟩ : BufTy).Contents (Elt Ideal)) (x1 : (⟨S100000x10, .i32⟩ : BufTy).Contents (Elt Ideal))
    (feat : (⟨S100000x256, .f32⟩ : BufTy).Contents (Elt Ideal)) (w1 : (⟨S128x256, .f32⟩ : BufTy).Contents (Elt Ideal))
    (row : Fin 4096 → Fin 2 → Fin 10 → Fin 10 → Fin 100000)
    (hg : ∀ (e : Fin 4096) (p : Fin 2) (k : Fin 10) (j : Fin 10) (f : Fin 256),
      val_main_v20 (F := Ideal) x0 x1 feat (ix5 e p k j f) = feat (ix2 (row e p k j) f))
    (e : Fin 4096) (p : Fin 2) (d : Fin 128) :
    val_main_v28 (F := Ideal) x0 x1 feat w1 (ix3 e p d) = Cert.Spec.refPool row feat w1 e p d := by
  rw [val_main_v28_apply, val_main_v26_apply, val_main_v27_apply, val_main_cst_7_apply, val_main_cst_6_apply]
  rw [Ideal.hostDivf_def, Ideal.ofBits_def, Ideal.ofBits_def, Ideal.ofBits_zero_f32, zero_add]
  unfold Cert.Spec.refPool
  congr 1
  refine Finset.sum_congr rfl fun k _ => ?_
  have h26 : idx_main_v26 (ix3 e p d) k = ix4 e p k d :=
    funext fun a => Fin.ext (by match a with | ⟨0, _⟩ => rfl | ⟨1, _⟩ => rfl | ⟨2, _⟩ => rfl | ⟨3, _⟩ => rfl)
  rw [h26, val_main_v25_apply, val_main_call0_v0_apply, val_main_call0_cst_apply, val_main_v24_apply]
  rw [Ideal.maximumf_def, Ideal.ofBits_def, Ideal.ofBits_zero_f32]
  congr 1
  refine Finset.sum_congr rfl fun f _ => ?_
  have hl : lidx_main_v24 (ix4 e p k d) f = ix4 e p k f :=
    funext fun a => Fin.ext (by match a with | ⟨0, _⟩ => rfl | ⟨1, _⟩ => rfl | ⟨2, _⟩ => rfl | ⟨3, _⟩ => rfl)
  have hr : ridx_main_v24 (ix4 e p k d) f = ix2 d f :=
    funext fun a => Fin.ext (by match a with | ⟨0, _⟩ => rfl | ⟨1, _⟩ => rfl)
  rw [hl, hr, meanFeat_value x0 x1 feat row hg]

/-- Layer 2, at (e, p, g). -/
theorem layer2_value (x0 : (⟨S4096x2, .i32⟩ : BufTy).Contents (Elt Ideal)) (x1 : (⟨S100000x10, .i32⟩ : BufTy).Contents (Elt Ideal))
    (feat : (⟨S100000x256, .f32⟩ : BufTy).Contents (Elt Ideal)) (w1 : (⟨S128x256, .f32⟩ : BufTy).Contents (Elt Ideal))
    (w2 : (⟨S128x128, .f32⟩ : BufTy).Contents (Elt Ideal))
    (row : Fin 4096 → Fin 2 → Fin 10 → Fin 10 → Fin 100000)
    (hg : ∀ (e : Fin 4096) (p : Fin 2) (k : Fin 10) (j : Fin 10) (f : Fin 256),
      val_main_v20 (F := Ideal) x0 x1 feat (ix5 e p k j f) = feat (ix2 (row e p k j) f))
    (e : Fin 4096) (p : Fin 2) (g : Fin 128) :
    val_main_v29 (F := Ideal) x0 x1 feat w1 w2 (ix3 e p g) = Cert.Spec.refLayer2 row feat w1 w2 e p g := by
  rw [val_main_v29_apply]
  unfold Cert.Spec.refLayer2
  refine Finset.sum_congr rfl fun d _ => ?_
  have hl : lidx_main_v29 (ix3 e p g) d = ix3 e p d :=
    funext fun a => Fin.ext (by match a with | ⟨0, _⟩ => rfl | ⟨1, _⟩ => rfl | ⟨2, _⟩ => rfl)
  have hr : ridx_main_v29 (ix3 e p g) d = ix2 g d :=
    funext fun a => Fin.ext (by match a with | ⟨0, _⟩ => rfl | ⟨1, _⟩ => rfl)
  rw [hl, hr, pool_value x0 x1 feat w1 row hg]

/-- The reference's result is the specification's refArr, given what the gather stage reads. -/
theorem ref_value (x0 : (⟨S4096x2, .i32⟩ : BufTy).Contents (Elt Ideal)) (x1 : (⟨S100000x10, .i32⟩ : BufTy).Contents (Elt Ideal))
    (feat : (⟨S100000x256, .f32⟩ : BufTy).Contents (Elt Ideal)) (w1 : (⟨S128x256, .f32⟩ : BufTy).Contents (Elt Ideal))
    (w2 : (⟨S128x128, .f32⟩ : BufTy).Contents (Elt Ideal)) (wc : (⟨S2x128, .f32⟩ : BufTy).Contents (Elt Ideal))
    (row : Fin 4096 → Fin 2 → Fin 10 → Fin 10 → Fin 100000)
    (hg : ∀ (e : Fin 4096) (p : Fin 2) (k : Fin 10) (j : Fin 10) (f : Fin 256),
      val_main_v20 (F := Ideal) x0 x1 feat (ix5 e p k j f) = feat (ix2 (row e p k j) f)) :
    val_main_v38 (F := Ideal) x0 x1 feat w1 w2 wc = Cert.Spec.refArr row feat w1 w2 wc := by
  funext i
  obtain ⟨e, c, rfl⟩ : ∃ (e : Fin 4096) (c : Fin 2), i = ix2 e c := ⟨i 0, i 1, eq_ix2 i⟩
  rw [val_main_v38_apply]
  show _ = ∑ g : Fin 128,
    (Ideal.ofBits .f32 0x3F000000#32 * (Cert.Spec.refLayer2 row feat w1 w2 e 0 g + Cert.Spec.refLayer2 row feat w1 w2 e 1 g))
      * wc (ix2 c g)
  refine Finset.sum_congr rfl fun g _ => ?_
  have he : e.val < 4096 := e.isLt
  have hgl : g.val < 128 := g.isLt
  have h0 : idx_main_v30 (idx_main_v31 (lidx_main_v38 (ix2 e c) g)) = ix3 e (0 : Fin 2) g :=
    funext fun a => Fin.ext (by
      match a with
      | ⟨0, _⟩ => show (e.val * 128 + g.val) / 128 = e.val; omega
      | ⟨1, _⟩ => rfl
      | ⟨2, _⟩ => show (e.val * 128 + g.val) % 128 = g.val; omega)
  have h1 : idx_main_v32 (idx_main_v33 (lidx_main_v38 (ix2 e c) g)) = ix3 e (1 : Fin 2) g :=
    funext fun a => Fin.ext (by
      match a with
      | ⟨0, _⟩ => show (e.val * 128 + g.val) / 128 = e.val; omega
      | ⟨1, _⟩ => rfl
      | ⟨2, _⟩ => show (e.val * 128 + g.val) % 128 = g.val; omega)
  have ht : idx_main_v37 (ridx_main_v38 (ix2 e c) g) = ix2 c g :=
    funext fun a => Fin.ext (by match a with | ⟨0, _⟩ => rfl | ⟨1, _⟩ => rfl)
  rw [val_main_v36_apply, val_main_v37_apply, val_main_v35_apply, val_main_cst_8_apply, val_main_v34_apply,
    val_main_v31_apply, val_main_v33_apply, val_main_v30_apply, val_main_v32_apply, h0, h1, ht,
    layer2_value x0 x1 feat w1 w2 row hg, layer2_value x0 x1 feat w1 w2 row hg]
  rw [Ideal.mulf_def, Ideal.addf_def, Ideal.ofBits_def]

end Cert.ReferenceIdeal.RefValue

end
-- ==== Proof.Finite.lean ====
/-
  Finiteness of the four float arguments, read out of the precondition.

  The precondition is one bit: for each of the four float arrays x, the conjunction over all entries of
  the comparison |x[i]| < +∞, and the four conjunctions and-ed together; the bit is 1. Over the extended
  reals |x| is max x (-x), and max x (-x) < ⊤ fails at x = ⊤ (the maximum is ⊤) and at x = ⊥ (the
  maximum is -⊥ = ⊤), so it holds exactly when x is the coercion of a real number. A conjunction that is
  1 has every conjunct 1, hence every entry of every one of the four arrays is a real.
-/
import proofs.«119978_j30099130811051_2_alg».proof.Proof.Spec
import proofs.«119978_j30099130811051_2_alg».proof.Defs
import Idealize.ShloMosaic.Lib.ReduceAll

noncomputable section

namespace Cert.Proof.FiniteInputs

open Idealize.ShloMosaic Idealize.ShloMosaic.ValueIdx Idealize.SL.Sem Cert.Pre_finite_inputs

/-- The shape of rank 0 has one index. -/
instance : Subsingleton S_.Idx := ⟨fun a b => funext fun d => d.elim0⟩

/-- An extended real whose absolute value max x (-x) lies below ⊤ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The f32 word with exponent field all ones, fraction zero and sign clear denotes +∞. -/
theorem ofBits_pos_inf : Ideal.ofBits .f32 0x7F800000#32 = (⊤ : EReal) := by
  simp [Ideal.ofBits, Ideal.ieee]

/-- One array: if the conjunction over all entries of |a[i]| < +∞ is 1, every entry of a is a real. -/
theorem finite_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf a) (broadcastInDim s ![] hb (constant S_ .f32 0x7F800000#32))) init hr hu ix0 = 1#1) :
    Cert.Spec.Finite a := by
  intro i
  have hi := Host.reduce_andi_all _ init hr hu ix0 e i
  have hi' : Ideal.cmp .olt (max (a i) (-(a i))) (Ideal.ofBits .f32 0x7F800000#32) = 1#1 := hi
  rw [ofBits_pos_inf] at hi'
  refine real_of_abs_lt_top (a i) ?_
  -- the comparison bit is the truth value of the strict inequality: were it false, the bit would be 0
  by_contra hc
  have hd : decide (max (a i) (-(a i)) < (⊤ : EReal)) = false := decide_eq_false hc
  have hb : Ideal.cmp .olt (max (a i) (-(a i))) (⊤ : EReal)
      = BitVec.ofBool (decide (max (a i) (-(a i)) < (⊤ : EReal))) := rfl
  rw [hb, hd] at hi'
  exact absurd hi' (by decide)

/-- The precondition over arbitrary arrays: its bit is the and of the four conjunctions, so if it is 1 each
    conjunction is 1 and each of the four float arrays has only real entries. -/
theorem finite_of_fn [Facts] (a0 : IVec S4096x2 32) (a1 : IVec S100000x10 32)
    (a2 : FVec Ideal S100000x256 .f32) (a3 : FVec Ideal S128x256 .f32)
    (a4 : FVec Ideal S128x128 .f32) (a5 : FVec Ideal S2x128 .f32)
    (h : fn (F := Ideal) a0 a1 a2 a3 a4 a5 = fun _ => 1#1) :
    Cert.Spec.Finite a2 ∧ Cert.Spec.Finite a3 ∧ Cert.Spec.Finite a4 ∧ Cert.Spec.Finite a5 := by
  have h0 := congrFun h ix0
  dsimp only [fn, fn_part1] at h0
  obtain ⟨h234, h5⟩ := IntOp.andi_eq_one.1 h0
  obtain ⟨h23, h4⟩ := IntOp.andi_eq_one.1 h234
  obtain ⟨h2, h3⟩ := IntOp.andi_eq_one.1 h23
  exact ⟨finite_of_all a2 _ _ _ _ h2, finite_of_all a3 _ _ _ _ h3,
    finite_of_all a4 _ _ _ _ h4, finite_of_all a5 _ _ _ _ h5⟩

/-- At any memory satisfying the precondition, on every device, the feature table and the three weight
    matrices have only real entries. -/
theorem finite_of_pre [Cert.Pre_finite_inputs.Facts] (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Spec.Finite (m ((c.tc : Thread Cert.KernelIdeal.nD Cert.KernelIdeal.τ).loc Cert.KernelIdeal.main_arg2))
    ∧ Cert.Spec.Finite (m ((c.tc : Thread Cert.KernelIdeal.nD Cert.KernelIdeal.τ).loc Cert.KernelIdeal.main_arg3))
    ∧ Cert.Spec.Finite (m ((c.tc : Thread Cert.KernelIdeal.nD Cert.KernelIdeal.τ).loc Cert.KernelIdeal.main_arg4))
    ∧ Cert.Spec.Finite (m ((c.tc : Thread Cert.KernelIdeal.nD Cert.KernelIdeal.τ).loc Cert.KernelIdeal.main_arg5)) :=
  finite_of_fn _ _ _ _ _ _ (hpre c)

end Cert.Proof.FiniteInputs

end
-- ==== Proof.lean ====
/-
  Two programs for a two-layer neighbourhood-mean graph encoder over 4096 edges, equal on finite inputs.

  Both follow each edge endpoint to ten neighbours and each of those to ten more (two index look-ups, a
  negative id wrapped, every id clamped into the table), so both read the same node `row e p k j` for edge `e`,
  endpoint `p`, first-hop slot `k`, second-hop slot `j`.
  The reference averages the raw 256 features over `j`, multiplies by the layer-1 weights, takes the positive part,
  averages over `k`, multiplies by the layer-2 weights, averages the two endpoints and multiplies by the classifier.
  The kernel multiplies EVERY node's features by the layer-1 weights first (one kernel over the whole table, in
  row tiles), gathers those 128-wide rows instead, and in a second kernel averages over `j`, takes the positive
  part, averages over `k`, averages the two endpoints and multiplies by the classifier and layer-2 weights folded
  into one matrix beforehand. A mean is a finite sum divided by ten and a matrix product is a finite sum of
  products, so on finite inputs the mean over `j` commutes with the layer-1 product, and the layer-2 and classifier
  products, being linear, commute with the average of the endpoints and fold into one: the two results are the
  same real number at every (edge, class). At an infinite input these laws fail on the extended reals, which
  is where the precondition is used.

  The pieces: Spec (both sides as formulas over the row map), Algebra (the formulas agree on finite arrays),
  GatherRows (a gather of whole rows read at an index), Embed and Fused (what each kernel leaves in its output
  array after all its tiles), Wcomb (the folded weights), HostMid (the run with its result named, and the host
  operations between the two kernels), KernelValue (the kernel side assembled), RefValue (the reference read at an
  index), Finite (every float input entry is a real number).
-/
import proofs.«119978_j30099130811051_2_alg».proof.Defs
import proofs.«119978_j30099130811051_2_alg».proof.Proof.Gen.Kernel
import proofs.«119978_j30099130811051_2_alg».proof.Proof.Gen.Kernel.Skeleton
import proofs.«119978_j30099130811051_2_alg».proof.Proof.Gen.Kernel.Launch
import proofs.«119978_j30099130811051_2_alg».proof.Proof.Gen.Kernel.Points
import proofs.«119978_j30099130811051_2_alg».proof.Proof.Gen.Kernel.Frame
import proofs.«119978_j30099130811051_2_alg».proof.Proof.Gen.KernelIdeal
import proofs.«119978_j30099130811051_2_alg».proof.Proof.Gen.KernelIdeal.Skeleton
import proofs.«119978_j30099130811051_2_alg».proof.Proof.Gen.KernelIdeal.Launch
import proofs.«119978_j30099130811051_2_alg».proof.Proof.Gen.KernelIdeal.Points
import proofs.«119978_j30099130811051_2_alg».proof.Proof.Gen.KernelIdeal.Frame
import proofs.«119978_j30099130811051_2_alg».proof.Proof.Gen.ReferenceIdeal
import proofs.«119978_j30099130811051_2_alg».proof.Proof.Gen.Pre_finite_inputs
import proofs.«119978_j30099130811051_2_alg».proof.Proof.Gen.ReferenceIdeal.Run
import proofs.«119978_j30099130811051_2_alg».proof.Proof.Gen.ReferenceIdeal.Read
import proofs.«119978_j30099130811051_2_alg».proof.Proof.Spec
import proofs.«119978_j30099130811051_2_alg».proof.Proof.Algebra
import proofs.«119978_j30099130811051_2_alg».proof.Proof.GatherRows
import proofs.«119978_j30099130811051_2_alg».proof.Proof.KernelValue
import proofs.«119978_j30099130811051_2_alg».proof.Proof.RefValue
import proofs.«119978_j30099130811051_2_alg».proof.Proof.Finite
import Idealize.ShloMosaic.Adequacy
import Idealize.ShloMosaic.Init

noncomputable section

namespace Cert.Proof

open Idealize.ShloMosaic Idealize.ShloMosaic.ValueIdx Idealize.SL.Sem

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the kernel read at the ideal values. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The reference's gather of feature rows, read at an index: the table at the row the two-hop id selects. -/
theorem ref_gather (x0 : IVec Cert.ReferenceIdeal.S4096x2 32) (x1 : IVec Cert.ReferenceIdeal.S100000x10 32)
    (feat : FVec Ideal Cert.ReferenceIdeal.S100000x256 .f32) (e : Fin 4096) (p : Fin 2) (k : Fin 10) (j : Fin 10) (f : Fin 256) :
    Cert.ReferenceIdeal.Read.val_main_v20 (F := Ideal) x0 x1 feat (ix5 e p k j f)
      = feat (ix2 (Cert.Spec.rowOf (Cert.ReferenceIdeal.Read.val_main_v19 (F := Ideal) x0 x1) e p k j) f) := by
  unfold Cert.ReferenceIdeal.Read.val_main_v20
  exact Cert.Spec.gather_rows_apply (D := 256) _ feat (Cert.ReferenceIdeal.Read.val_main_v19 (F := Ideal) x0 x1) e p k j f

/-- From memories that agree on the six arguments, both programs end with the same [4096, 2] array of extended
    reals: the kernel's is the kernel-side formula at the row map of its two-hop ids, the reference's the
    reference-side formula at the row map of ITS two-hop ids; the two id arrays are the same operations of the
    same arguments, and on finite arrays the two formulas agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.kernelArr
      (Cert.Spec.rowOf (Cert.KernelIdeal.HostMid.idx2hop (m ((c.tc : Thread Cert.KernelIdeal.nD Cert.KernelIdeal.τ).loc Cert.KernelIdeal.main_arg0))
        (m ((c.tc : Thread Cert.KernelIdeal.nD Cert.KernelIdeal.τ).loc Cert.KernelIdeal.main_arg1))))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result m ρ c), (h c).2⟩)
      (Cert.KernelIdeal.HostMid.run_named m ρ)
  · refine (θ_run Cert.ReferenceIdeal.defs _ _).mono (fun r h c => ⟨(h c).1.trans ?_, (h c).2⟩)
      (Cert.ReferenceIdeal.Value.run (F := Ideal) m' ρ')
    obtain ⟨h2, h3, h4, h5⟩ := Cert.Proof.FiniteInputs.finite_of_pre m hpre c
    rw [Cert.ReferenceIdeal.Read.val_main_v38_eq, (hagree c).1, (hagree c).2.1, (hagree c).2.2.1, (hagree c).2.2.2.1,
      (hagree c).2.2.2.2.1, (hagree c).2.2.2.2.2,
      Cert.ReferenceIdeal.RefValue.ref_value _ _ _ _ _ _ _ (ref_gather _ _ _),
      ← Cert.Spec.kernelArr_eq_refArr _ _ _ _ _ h2 h3 h4 h5]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
